-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x256 : Shape := ⟨2, ![40000, 256]⟩
abbrev S256x128 : Shape := ⟨2, ![256, 128]⟩
abbrev S128 : Shape := ⟨1, ![128]⟩
abbrev S128x128 : Shape := ⟨2, ![128, 128]⟩
abbrev S2x640000 : Shape := ⟨2, ![2, 640000]⟩
abbrev S_ : Shape := ⟨0, ![]⟩

class Facts : Prop where
  bcast_S_S40000x256 : S_.BroadcastsInDim S40000x256 (![] : Fin 0 → Fin S40000x256.rank)
  reducesTo_S40000x256_S_d0_1 : S40000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S256x128 .f32) (main_arg6 : FVec F S128 .f32) (main_arg7 : FVec F S128x128 .f32) (main_arg8 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S40000x256 .f32) (main_arg1 : FVec F S256x128 .f32) (main_arg2 : FVec F S128 .f32) (main_arg3 : FVec F S256x128 .f32) (main_arg4 : FVec F S128 .f32) (main_arg5 : FVec F S256x128 .f32) (main_arg6 : FVec F S128 .f32) (main_arg7 : FVec F S128x128 .f32) (main_arg8 : FVec F S128 .f32) (main_arg9 : IVec S2x640000 32) : IVec S_ 1 :=
  let main_v0 : FVec F S40000x256 .f32 := Host.absf main_arg0
  let main_cst : FVec F S_ .f32 := constant S_ .f32 0x7F800000#32
  let main_v1 : FVec F S40000x256 .f32 := broadcastInDim S40000x256 ![] bcast_S_S40000x256 main_cst
  let main_v2 : IVec S40000x256 1 := cmpf .olt main_v0 main_v1
  let main_c : IVec S_ 1 := constantI S_ 1 1#1
  let main_v3 : IVec S_ 1 := (fun x v => Host.reduce IntOp.andi x v reducesTo_S40000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_v13 main_v16
-- ==== Kernel.lean ====
abbrev S40000x256 : Shape := ⟨2, ![40000, 256]⟩
abbrev S256x128 : Shape := ⟨2, ![256, 128]⟩
abbrev S128 : Shape := ⟨1, ![128]⟩
abbrev S128x128 : Shape := ⟨2, ![128, 128]⟩
abbrev S2x640000 : Shape := ⟨2, ![2, 640000]⟩
abbrev S1x640000 : Shape := ⟨2, ![1, 640000]⟩
abbrev S640000 : Shape := ⟨1, ![640000]⟩
abbrev S40000x128 : Shape := ⟨2, ![40000, 128]⟩
abbrev S5000x256 : Shape := ⟨2, ![5000, 256]⟩
abbrev S5000x128 : Shape := ⟨2, ![5000, 128]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩

abbrev nBuf : Space → Nat
  | .hbm => 122
  | .vmem => 30
  | .smem => 0
  | _ => 0

abbrev bufTy : (tb : Table) → Fin (tcTables nBuf tb) → BufTy
  | .hbm, ⟨0, _⟩ => ⟨S40000x256, .f32⟩
  | .hbm, ⟨1, _⟩ => ⟨S256x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S2x640000, .i32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S40000x128, .f32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S40000x128, .f32⟩
  | .hbm, ⟨26, _⟩ => ⟨S640000x1, .i32⟩
  | .hbm, ⟨27, _⟩ => ⟨S40000x128, .f32⟩
  | .hbm, ⟨28, _⟩ => ⟨S_, .f32⟩
  | .hbm, ⟨29, _⟩ => ⟨S640000, .f32⟩
  | .hbm, ⟨30, _⟩ => ⟨S_, .f32⟩
  | .hbm, ⟨31, _⟩ => ⟨S40000, .f32⟩
  | .hbm, ⟨32, _⟩ => ⟨S640000x1, .i32⟩
  | .hbm, ⟨33, _⟩ => ⟨S40000, .f32⟩
  | .hbm, ⟨34, _⟩ => ⟨S_, .f32⟩
  | .hbm, ⟨35, _⟩ => ⟨S40000, .f32⟩
  | .hbm, ⟨36, _⟩ => ⟨S40000, .f32⟩
  | .hbm, ⟨37, _⟩ => ⟨S40000x1, .f32⟩
  | .hbm, ⟨38, _⟩ => ⟨S40000x128, .f32⟩
  | .hbm, ⟨39, _⟩ => ⟨S40000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S_, .f32⟩
  | .hbm, ⟨50, _⟩ => ⟨S40000x128, .f32⟩
  | .hbm, ⟨51, _⟩ => ⟨S640000x1, .i32⟩
  | .hbm, ⟨52, _⟩ => ⟨S40000x128, .f32⟩
  | .hbm, ⟨53, _⟩ => ⟨S_, .f32⟩
  | .hbm, ⟨54, _⟩ => ⟨S640000, .f32⟩
  | .hbm, ⟨55, _⟩ => ⟨S_, .f32⟩
  | .hbm, ⟨56, _⟩ => ⟨S40000, .f32⟩
  | .hbm, ⟨57, _⟩ => ⟨S640000x1, .i32⟩
  | .hbm, ⟨58, _⟩ => ⟨S40000, .f32⟩
  | .hbm, ⟨59, _⟩ => ⟨S_, .f32⟩
  | .hbm, ⟨60, _⟩ => ⟨S40000, .f32⟩
  | .hbm, ⟨61, _⟩ => ⟨S40000, .f32⟩
  | .hbm, ⟨62, _⟩ => ⟨S40000x1, .f32⟩
  | .hbm, ⟨63, _⟩ => ⟨S40000x128, .f32⟩
  | .hbm, ⟨64, _⟩ => ⟨S40000x128, .f32⟩
  | .hbm, ⟨65, _⟩ => ⟨S128x128, .f32⟩
  | .hbm, ⟨66, _⟩ => ⟨S128x128, .f32⟩
  | .hbm, ⟨67, _⟩ => ⟨S40000x128, .f32⟩
  | .hbm, ⟨68, _⟩ => ⟨S_, .i32⟩
  | .hbm, ⟨69, _⟩ => ⟨S640000, .i32⟩
  | .hbm, ⟨70, _⟩ => ⟨S640000, .i1⟩
  | .hbm, ⟨71, _⟩ => ⟨S_, .i32⟩
  | .hbm, ⟨72, _⟩ => ⟨S640000, .i32⟩
  | .hbm, ⟨73, _⟩ => ⟨S640000, .i32⟩
  | .hbm, ⟨74, _⟩ => ⟨S640000, .i32⟩
  | .hbm, ⟨75, _⟩ => ⟨S640000x1, .i32⟩
  | .hbm, ⟨76, _⟩ => ⟨S640000x128, .f32⟩
  | .hbm, ⟨77, _⟩ => ⟨S_, .f32⟩
  | .hbm, ⟨78, _⟩ => ⟨S40000x128, .f32⟩
  | .hbm, ⟨79, _⟩ => ⟨S640000x1, .i32⟩
  | .hbm, ⟨80, _⟩ => ⟨S40000x128, .f32⟩
  | .hbm, ⟨81, _⟩ => ⟨S_, .f32⟩
  | .hbm, ⟨82, _⟩ => ⟨S640000, .f32⟩
  | .hbm, ⟨83, _⟩ => ⟨S_, .f32⟩
  | .hbm, ⟨84, _⟩ => ⟨S40000, .f32⟩
  | .hbm, ⟨85, _⟩ => ⟨S640000x1, .i32⟩
  | .hbm, ⟨86, _⟩ => ⟨S40000, .f32⟩
  | .hbm, ⟨87, _⟩ => ⟨S_, .f32⟩
  | .hbm, ⟨88, _⟩ => ⟨S40000, .f32⟩
  | .hbm, ⟨89, _⟩ => ⟨S40000, .f32⟩
  | .hbm, ⟨90, _⟩ => ⟨S40000x1, .f32⟩
  | .hbm, ⟨91, _⟩ => ⟨S40000x128, .f32⟩
  | .hbm, ⟨92, _⟩ => ⟨S40000x128, .f32⟩
  | .hbm, ⟨93, _⟩ => ⟨S_, .i32⟩
  | .hbm, ⟨94, _⟩ => ⟨S640000, .i32⟩
  | .hbm, ⟨95, _⟩ => ⟨S640000, .i1⟩
  | .hbm, ⟨96, _⟩ => ⟨S_, .i32⟩
  | .hbm, ⟨97, _⟩ => ⟨S640000, .i32⟩
  | .hbm, ⟨98, _⟩ => ⟨S640000, .i32⟩
  | .hbm, ⟨99, _⟩ => ⟨S640000, .i32⟩
  | .hbm, ⟨100, _⟩ => ⟨S640000x1, .i32⟩
  | .hbm, ⟨101, _⟩ => ⟨S640000x128, .f32⟩
  | .hbm, ⟨102, _⟩ => ⟨S_, .f32⟩
  | .hbm, ⟨103, _⟩ => ⟨S40000x128, .f32⟩
  | .hbm, ⟨104, _⟩ => ⟨S640000x1, .i32⟩
  | .hbm, ⟨105, _⟩ => ⟨S40000x128, .f32⟩
  | .hbm, ⟨106, _⟩ => ⟨S_, .f32⟩
  | .hbm, ⟨107, _⟩ => ⟨S640000, .f32⟩
  | .hbm, ⟨108, _⟩ => ⟨S_, .f32⟩
  | .hbm, ⟨109, _⟩ => ⟨S40000, .f32⟩
  | .hbm, ⟨110, _⟩ => ⟨S640000x1, .i32⟩
  | .hbm, ⟨111, _⟩ => ⟨S40000, .f32⟩
  | .hbm, ⟨112, _⟩ => ⟨S_, .f32⟩
  | .hbm, ⟨113, _⟩ => ⟨S40000, .f32⟩
  | .hbm, ⟨114, _⟩ => ⟨S40000, .f32⟩
  | .hbm, ⟨115, _⟩ => ⟨S40000x1, .f32⟩
  | .hbm, ⟨116, _⟩ => ⟨S40000x128, .f32⟩
  | .hbm, ⟨117, _⟩ => ⟨S40000x128, .f32⟩
  | .hbm, ⟨118, _⟩ => ⟨S128x128, .f32⟩
  | .hbm, ⟨119, _⟩ => ⟨S128x128, .f32⟩
  | .hbm, ⟨120, _⟩ => ⟨S40000x128, .f32⟩
  | .hbm, ⟨121, _⟩ => ⟨S40000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | _, _ => ⟨S40000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_15 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_16 : Ref sig .tc := ⟨.hbm, 93, rfl⟩
abbrev main_v65 : Ref sig .tc := ⟨.hbm, 94, rfl⟩
abbrev main_v66 : Ref sig .tc := ⟨.hbm, 95, rfl⟩
abbrev main_c_17 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_18 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_19 : Ref sig .tc := ⟨.hbm, 106, rfl⟩
abbrev main_v75 : Ref sig .tc := ⟨.hbm, 107, rfl⟩
abbrev main_cst_20 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_21 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  slices_S256x128_S128x128_0_0 : S256x128.Slices ![0, 0] S128x128
  slices_S256x128_S128x128_128_0 : S256x128.Slices ![128, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S5000x256_S256x128_S5000x128_1_0_0_1_n_n_wf : DotDims.WF S5000x256 S256x128 S5000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S40000x256.size a
  hwx0_0 : ∀ i : grid0.Coords, EltTy.bits .f32 = 32 ∨ (Rect.block (s := S40000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S40000x128.size a
  hwx0_3 : ∀ i : grid0.Coords, EltTy.bits .f32 = 32 ∨ (Rect.block (s := S40000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S40000x128.size a
  hwx1_5 : ∀ i : grid1.Coords, EltTy.bits .f32 = 32 ∨ (Rect.block (s := S40000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S40000x128.size a
  hwx2_1 : ∀ i : grid2.Coords, EltTy.bits .f32 = 32 ∨ (Rect.block (s := S40000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S40000x128.size a
  hwx2_5 : ∀ i : grid2.Coords, EltTy.bits .f32 = 32 ∨ (Rect.block (s := S40000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S40000x128.size a
  hwx3_3 : ∀ i : grid3.Coords, EltTy.bits .f32 = 32 ∨ (Rect.block (s := S40000x128) S5000x128.size (cc3_transform_3 i) (hinb3_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v84) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v86) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v86) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S40000x256 : Shape := ⟨2, ![40000, 256]⟩
abbrev S256x128 : Shape := ⟨2, ![256, 128]⟩
abbrev S128 : Shape := ⟨1, ![128]⟩
abbrev S128x128 : Shape := ⟨2, ![128, 128]⟩
abbrev S2x640000 : Shape := ⟨2, ![2, 640000]⟩
abbrev S1x640000 : Shape := ⟨2, ![1, 640000]⟩
abbrev S640000 : Shape := ⟨1, ![640000]⟩
abbrev S40000x128 : Shape := ⟨2, ![40000, 128]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩

abbrev nBuf : Space → Nat
  | .hbm => 138
  | .vmem => 0
  | .smem => 0
  | _ => 0

abbrev hbmTy0_0 (i : Nat) : BufTy := match i % 128 with
  | 0 => ⟨S40000x256, .f32⟩
  | 1 => ⟨S256x128, .f32⟩
  | 2 => ⟨S128, .f32⟩
  | 3 => ⟨S256x128, .f32⟩
  | 4 => ⟨S128, .f32⟩
  | 5 => ⟨S256x128, .f32⟩
  | 6 => ⟨S128, .f32⟩
  | 7 => ⟨S128x128, .f32⟩
  | 8 => ⟨S128, .f32⟩
  | 9 => ⟨S2x640000, .i32⟩
  | 10 => ⟨S1x640000, .i32⟩
  | 11 => ⟨S640000, .i32⟩
  | 12 => ⟨S1x640000, .i32⟩
  | 13 => ⟨S640000, .i32⟩
  | 14 => ⟨S40000x128, .f32⟩
  | 15 => ⟨S1x128, .f32⟩
  | 16 => ⟨S40000x128, .f32⟩
  | 17 => ⟨S40000x128, .f32⟩
  | 18 => ⟨S_, .f32⟩
  | 19 => ⟨S40000x128, .f32⟩
  | 20 => ⟨S40000x128, .f32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S640000x128, .f32⟩
  | 30 => ⟨S_, .f32⟩
  | 31 => ⟨S40000x128, .f32⟩
  | 32 => ⟨S640000x1, .i32⟩
  | 33 => ⟨S40000x128, .f32⟩
  | 34 => ⟨S_, .f32⟩
  | 35 => ⟨S640000, .f32⟩
  | 36 => ⟨S_, .f32⟩
  | 37 => ⟨S40000, .f32⟩
  | 38 => ⟨S640000x1, .i32⟩
  | 39 => ⟨S40000, .f32⟩
  | 40 => ⟨S_, .f32⟩
  | 41 => ⟨S40000, .f32⟩
  | 42 => ⟨S40000, .f32⟩
  | 43 => ⟨S40000x1, .f32⟩
  | 44 => ⟨S40000x128, .f32⟩
  | 45 => ⟨S40000x128, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000x128, .f32⟩
  | 55 => ⟨S_, .f32⟩
  | 56 => ⟨S40000x128, .f32⟩
  | 57 => ⟨S640000x1, .i32⟩
  | 58 => ⟨S40000x128, .f32⟩
  | 59 => ⟨S_, .f32⟩
  | 60 => ⟨S640000, .f32⟩
  | 61 => ⟨S_, .f32⟩
  | 62 => ⟨S40000, .f32⟩
  | 63 => ⟨S640000x1, .i32⟩
  | 64 => ⟨S40000, .f32⟩
  | 65 => ⟨S_, .f32⟩
  | 66 => ⟨S40000, .f32⟩
  | 67 => ⟨S40000, .f32⟩
  | 68 => ⟨S40000x1, .f32⟩
  | 69 => ⟨S40000x128, .f32⟩
  | 70 => ⟨S40000x128, .f32⟩
  | 71 => ⟨S40000x256, .f32⟩
  | 72 => ⟨S40000x128, .f32⟩
  | 73 => ⟨S1x128, .f32⟩
  | 74 => ⟨S40000x128, .f32⟩
  | 75 => ⟨S40000x128, .f32⟩
  | 76 => ⟨S_, .f32⟩
  | 77 => ⟨S40000x128, .f32⟩
  | 78 => ⟨S40000x128, .f32⟩
  | 79 => ⟨S_, .i32⟩
  | 80 => ⟨S640000, .i32⟩
  | 81 => ⟨S640000, .i1⟩
  | 82 => ⟨S_, .i32⟩
  | 83 => ⟨S640000, .i32⟩
  | 84 => ⟨S640000, .i32⟩
  | 85 => ⟨S640000, .i32⟩
  | 86 => ⟨S640000x1, .i32⟩
  | 87 => ⟨S640000x128, .f32⟩
  | 88 => ⟨S_, .f32⟩
  | 89 => ⟨S40000x128, .f32⟩
  | 90 => ⟨S640000x1, .i32⟩
  | 91 => ⟨S40000x128, .f32⟩
  | 92 => ⟨S_, .f32⟩
  | 93 => ⟨S640000, .f32⟩
  | 94 => ⟨S_, .f32⟩
  | 95 => ⟨S40000, .f32⟩
  | 96 => ⟨S640000x1, .i32⟩
  | 97 => ⟨S40000, .f32⟩
  | 98 => ⟨S_, .f32⟩
  | 99 => ⟨S40000, .f32⟩
  | 100 => ⟨S40000, .f32⟩
  | 101 => ⟨S40000x1, .f32⟩
  | 102 => ⟨S40000x128, .f32⟩
  | 103 => ⟨S40000x128, .f32⟩
  | 104 => ⟨S_, .i32⟩
  | 105 => ⟨S640000, .i32⟩
  | 106 => ⟨S640000, .i1⟩
  | 107 => ⟨S_, .i32⟩
  | 108 => ⟨S640000, .i32⟩
  | 109 => ⟨S640000, .i32⟩
  | 110 => ⟨S640000, .i32⟩
  | 111 => ⟨S640000x1, .i32⟩
  | 112 => ⟨S640000x128, .f32⟩
  | 113 => ⟨S_, .f32⟩
  | 114 => ⟨S40000x128, .f32⟩
  | 115 => ⟨S640000x1, .i32⟩
  | 116 => ⟨S40000x128, .f32⟩
  | 117 => ⟨S_, .f32⟩
  | 118 => ⟨S640000, .f32⟩
  | 119 => ⟨S_, .f32⟩
  | 120 => ⟨S40000, .f32⟩
  | 121 => ⟨S640000x1, .i32⟩
  | 122 => ⟨S40000, .f32⟩
  | 123 => ⟨S_, .f32⟩
  | 124 => ⟨S40000, .f32⟩
  | 125 => ⟨S40000, .f32⟩
  | 126 => ⟨S40000x1, .f32⟩
  | 127 => ⟨S40000x128, .f32⟩
  | _ => ⟨S40000x256, .f32⟩

abbrev hbmTy0_1 (i : Nat) : BufTy := match i % 128 with
  | 0 => ⟨S40000x128, .f32⟩
  | 1 => ⟨S40000x256, .f32⟩
  | 2 => ⟨S40000x128, .f32⟩
  | 3 => ⟨S1x128, .f32⟩
  | 4 => ⟨S40000x128, .f32⟩
  | 5 => ⟨S40000x128, .f32⟩
  | 6 => ⟨S40000x128, .f32⟩
  | 7 => ⟨S1x128, .f32⟩
  | 8 => ⟨S40000x128, .f32⟩
  | 9 => ⟨S40000x128, .f32⟩
  | _ => ⟨S40000x256, .f32⟩

abbrev hbmTy (i : Nat) : BufTy := match i / 128 with
  | 0 => hbmTy0_0 i
  | 1 => hbmTy0_1 i
  | _ => ⟨S40000x256, .f32⟩

abbrev bufTy : (tb : Table) → Fin (tcTables nBuf tb) → BufTy
  | .hbm, ⟨i, _⟩ => hbmTy i
  | _, _ => ⟨S40000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_cst : Ref sig .tc := ⟨.hbm, 76, rfl⟩
abbrev main_call1_v0 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_cst_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_15 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_c_17 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_18 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_cst_20 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_21 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S40000x128 : S_.BroadcastsInDim S40000x128 (![] : Fin 0 → Fin S40000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  concatenates_S40000x128_S40000x128_S40000x256_d1 : Shape.Concatenates [S40000x128, S40000x128] S40000x256 1
  dot_S40000x256_S256x128_S40000x128_1_0_0_1_n_n_wf : DotDims.WF S40000x256 S256x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []

variable [Facts₀]

def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.KernelRun.lean ====
/-
  The idealized kernel program's run with its result named. The program is four pipelined kernels among three
  stretches of host operations; its buffers' contents at each boundary are a fold from the launch memory: a stretch
  applies its operations, a kernel leaves each of its arrays at what its write-backs fold to and every other buffer
  as it found it. Every weakly fair execution terminates with every unscoped buffer at the last boundary's contents;
  here that is read at the result buffer and at the ten arguments (which no stretch and no kernel writes).
-/
import proofs.«135795_j38517266710885_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v87) = W7 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v87 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.RunValue

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibPairConcat.lean ====
/-
  Two arrays joined along an axis, read at an entry, for matrices: two blocks side by side (axis 1) and two blocks one
  above the other (axis 0). An entry whose coordinate on the joined axis lies below the first block's extent is the
  first block's entry at the same coordinates; an entry at or past it is the second block's, the first extent less.
  And the sum this splits: a sum over a + b places is the sum over the first a plus the sum over the last b.
  General in the extents and the element type.
-/
import Idealize.ShloMosaic.Lib.Pipeline.Value
import Idealize.ShloMosaic.Lib.ValueIdx

namespace Cert.PairConcat

open Idealize.ShloMosaic Idealize.ShloMosaic.ValueIdx

variable {α : Type}

/-- Two blocks side by side: a column of the first block. -/
theorem concat_cols_left {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (k : Fin a) (hk : k.val < c) :
    concatenate ⟨2, ![m, c]⟩ 1 [⟨⟨2, ![m, a]⟩, x₁⟩, ⟨⟨2, ![m, b]⟩, x₂⟩] h (ix2 p ⟨k.val, hk⟩) = x₁ (ix2 p k) := by
  refine concatenate_pair_apply_left (t := ⟨2, ![m, c]⟩) (1 : Fin 2) x₁ x₂ h _ rfl (ix2 p k) fun bx => ?_
  match bx with
  | ⟨0, _⟩ => rfl
  | ⟨1, _⟩ => rfl

/-- Two blocks side by side: a column of the second block. -/
theorem concat_cols_right {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (k : Fin b) (hk : a + k.val < c) :
    concatenate ⟨2, ![m, c]⟩ 1 [⟨⟨2, ![m, a]⟩, x₁⟩, ⟨⟨2, ![m, b]⟩, x₂⟩] h (ix2 p ⟨a + k.val, hk⟩) = x₂ (ix2 p k) := by
  refine concatenate_pair_apply_right (t := ⟨2, ![m, c]⟩) (1 : Fin 2) x₁ x₂ h _ rfl rfl (ix2 p k) (fun bx hb => ?_) ?_
  · match bx with
    | ⟨0, _⟩ => rfl
    | ⟨1, _⟩ => exact absurd rfl hb
  · show k.val + a = a + k.val
    omega

/-- Two blocks one above the other: a row of the first block. -/
theorem concat_rows_left {a b c n : ℕ} (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ 0) (k : Fin a) (hk : k.val < c) (q : Fin n) :
    concatenate ⟨2, ![c, n]⟩ 0 [⟨⟨2, ![a, n]⟩, x₁⟩, ⟨⟨2, ![b, n]⟩, x₂⟩] h (ix2 ⟨k.val, hk⟩ q) = x₁ (ix2 k q) := by
  refine concatenate_pair_apply_left (t := ⟨2, ![c, n]⟩) (0 : Fin 2) x₁ x₂ h _ rfl (ix2 k q) fun bx => ?_
  match bx with
  | ⟨0, _⟩ => rfl
  | ⟨1, _⟩ => rfl

/-- Two blocks one above the other: a row of the second block. -/
theorem concat_rows_right {a b c n : ℕ} (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ 0) (k : Fin b) (hk : a + k.val < c) (q : Fin n) :
    concatenate ⟨2, ![c, n]⟩ 0 [⟨⟨2, ![a, n]⟩, x₁⟩, ⟨⟨2, ![b, n]⟩, x₂⟩] h (ix2 ⟨a + k.val, hk⟩ q) = x₂ (ix2 k q) := by
  refine concatenate_pair_apply_right (t := ⟨2, ![c, n]⟩) (0 : Fin 2) x₁ x₂ h _ rfl rfl (ix2 k q) (fun bx hb => ?_) ?_
  · match bx with
    | ⟨0, _⟩ => exact absurd rfl hb
    | ⟨1, _⟩ => rfl
  · show k.val + a = a + k.val
    omega

/-- A sum over `a + b` places is the sum over the first `a` plus the sum over the last `b`. -/
theorem sum_split {M : Type*} [AddCommMonoid M] (a b c : ℕ) (hc : a + b = c) (f : Fin c → M) :
    ∑ k : Fin c, f k = ∑ k : Fin a, f ⟨k.val, by have := k.isLt; omega⟩ + ∑ k : Fin b, f ⟨a + k.val, by have := k.isLt; omega⟩ := by
  subst hc
  rw [Fin.sum_univ_add]
  rfl

end Cert.PairConcat
-- ==== Proof.LibDenseMixLayers.lean ====
/-
  The dense layers of the encoder, entry by entry, on the extended reals.

  A dense layer sends a matrix X : [M, K] to X·W + b with W : [K, N] and b : [N] laid along every row: its entry
  (p, q) is ∑ₖ X(p, k)·W(k, q) + b(q). A mixing layer takes two matrices H₁, H₂ : [M, K] and two weights
  Wt, Wb : [K, N]: its entry (p, q) is (∑ₖ H₁(p, k)·Wt(k, q) + ∑ₖ H₂(p, k)·Wb(k, q)) + b(q). Either may be followed by
  the maximum with the zero word. Every entry of a layer depends on ONE row of its matrix operands.

  Two spellings of each are read at an entry here. A kernel body's: the operands narrowed to bf16 (the identity on
  the extended reals), a matrix product into the zero accumulator, the bias cast to one row and spread down the
  rows. A host program's: dot_general, the bias spread by two broadcast_in_dims; and for the mixing layer the host
  joins H₁ and H₂ side by side and multiplies by ONE weight [K + K, N] — the sum over the K + K joined columns is the
  sum over the first K plus the sum over the last K (addition on the extended reals is commutative and associative,
  which is all this takes), so it is the mixing layer of the weight's upper and lower halves.
-/
import Idealize.ShloMosaic.PureOps.Ideal.Laws
import Idealize.ShloMosaic.Lib.ValueIdx
import Idealize.ShloMosaic.Lib.ValueLayout
import Idealize.ShloMosaic.Lib.Pipeline.Value
import proofs.«135795_j38517266710885_1_alg».proof.Proof.LibPlainDot
import proofs.«135795_j38517266710885_1_alg».proof.Proof.LibPairConcat

noncomputable section

namespace Cert.Layers

open Idealize.ShloMosaic Idealize.ShloMosaic.ValueIdx

variable {M K N : ℕ}

/-! ## The layers at an entry -/

/-- Entry (p, q) of X·W + b. -/
def affineAt (X : FVec Ideal ⟨2, ![M, K]⟩ .f32) (W : FVec Ideal ⟨2, ![K, N]⟩ .f32) (b : FVec Ideal ⟨1, ![N]⟩ .f32)
    (p : Fin M) (q : Fin N) : EReal :=
  (∑ k : Fin K, X (ix2 p k) * W (ix2 k q)) + b (ix1 q)

/-- Entry (p, q) of H₁·Wt + H₂·Wb + b. -/
def mixAt (H₁ H₂ : FVec Ideal ⟨2, ![M, K]⟩ .f32) (Wt Wb : FVec Ideal ⟨2, ![K, N]⟩ .f32) (b : FVec Ideal ⟨1, ![N]⟩ .f32)
    (p : Fin M) (q : Fin N) : EReal :=
  ((∑ k : Fin K, H₁ (ix2 p k) * Wt (ix2 k q)) + ∑ k : Fin K, H₂ (ix2 p k) * Wb (ix2 k q)) + b (ix1 q)

/-- The maximum with the zero word (the word is kept as a word: both programs carry the same one). -/
def relu0 (v : EReal) : EReal := max v (Ideal.ofBits .f32 0x00000000#32)

/-- An entry of a dense layer depends on one row of X, one column of W and one entry of b. -/
theorem affineAt_congr {M' : ℕ} (X : FVec Ideal ⟨2, ![M, K]⟩ .f32) (X' : FVec Ideal ⟨2, ![M', K]⟩ .f32)
    (W W' : FVec Ideal ⟨2, ![K, N]⟩ .f32) (b b' : FVec Ideal ⟨1, ![N]⟩ .f32) (p : Fin M) (p' : Fin M') (q : Fin N)
    (hX : ∀ k, X (ix2 p k) = X' (ix2 p' k)) (hW : ∀ k, W (ix2 k q) = W' (ix2 k q)) (hb : b (ix1 q) = b' (ix1 q)) :
    affineAt X W b p q = affineAt X' W' b' p' q := by
  unfold affineAt
  rw [hb]
  exact congrArg (· + b' (ix1 q)) (Finset.sum_congr rfl fun k _ => by rw [hX k, hW k])

/-- An entry of a mixing layer depends on one row of each of H₁, H₂, one column of each weight and one entry of b. -/
theorem mixAt_congr {M' : ℕ} (H₁ H₂ : FVec Ideal ⟨2, ![M, K]⟩ .f32) (H₁' H₂' : FVec Ideal ⟨2, ![M', K]⟩ .f32)
    (Wt Wb Wt' Wb' : FVec Ideal ⟨2, ![K, N]⟩ .f32) (b b' : FVec Ideal ⟨1, ![N]⟩ .f32) (p : Fin M) (p' : Fin M') (q : Fin N)
    (h1 : ∀ k, H₁ (ix2 p k) = H₁' (ix2 p' k)) (h2 : ∀ k, H₂ (ix2 p k) = H₂' (ix2 p' k))
    (ht : ∀ k, Wt (ix2 k q) = Wt' (ix2 k q)) (hbo : ∀ k, Wb (ix2 k q) = Wb' (ix2 k q)) (hb : b (ix1 q) = b' (ix1 q)) :
    mixAt H₁ H₂ Wt Wb b p q = mixAt H₁' H₂' Wt' Wb' b' p' q := by
  unfold mixAt
  rw [hb]
  exact congrArg (· + b' (ix1 q)) (congrArg₂ (· + ·)
    (Finset.sum_congr rfl fun k _ => by rw [h1 k, ht k])
    (Finset.sum_congr rfl fun k _ => by rw [h2 k, hbo k]))

/-! ## The layers as whole arrays -/

/-- X·W + b. -/
def dense (X : FVec Ideal ⟨2, ![M, K]⟩ .f32) (W : FVec Ideal ⟨2, ![K, N]⟩ .f32) (b : FVec Ideal ⟨1, ![N]⟩ .f32) :
    FVec Ideal ⟨2, ![M, N]⟩ .f32 := fun i => affineAt X W b (i 0) (i 1)

/-- max(X·W + b, 0). -/
def denseRelu (X : FVec Ideal ⟨2, ![M, K]⟩ .f32) (W : FVec Ideal ⟨2, ![K, N]⟩ .f32) (b : FVec Ideal ⟨1, ![N]⟩ .f32) :
    FVec Ideal ⟨2, ![M, N]⟩ .f32 := fun i => relu0 (affineAt X W b (i 0) (i 1))

/-- H₁·Wt + H₂·Wb + b. -/
def mix (H₁ H₂ : FVec Ideal ⟨2, ![M, K]⟩ .f32) (Wt Wb : FVec Ideal ⟨2, ![K, N]⟩ .f32) (b : FVec Ideal ⟨1, ![N]⟩ .f32) :
    FVec Ideal ⟨2, ![M, N]⟩ .f32 := fun i => mixAt H₁ H₂ Wt Wb b (i 0) (i 1)

/-- max(H₁·Wt + H₂·Wb + b, 0). -/
def mixRelu (H₁ H₂ : FVec Ideal ⟨2, ![M, K]⟩ .f32) (Wt Wb : FVec Ideal ⟨2, ![K, N]⟩ .f32) (b : FVec Ideal ⟨1, ![N]⟩ .f32) :
    FVec Ideal ⟨2, ![M, N]⟩ .f32 := fun i => relu0 (mixAt H₁ H₂ Wt Wb b (i 0) (i 1))

/-! ## A kernel body's spelling -/

/-- The bias as a kernel lays it: the vector cast to one row, the row spread down the rows. -/
theorem kernel_bias_apply (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (q : Fin N) :
    broadcastTo ⟨2, ![M, N]⟩ (shapeCast ⟨2, ![1, N]⟩ b hc) hb (ix2 p q) = b (ix1 q) :=
  (broadcastTo_1b_ab_apply _ hb p q).trans (shapeCast_a_1a_apply b hc 0 q)

/-- A kernel's dense layer at an entry: bf16-narrowed operands, a matrix product into zero, the bias row. -/
theorem kernel_affine_apply (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (b : FVec Ideal ⟨1, ![N]⟩ .f32)
    (hx : FTy.bf16.bits < FTy.f32.bits) (hc : (⟨1, ![N]⟩ : Shape).ShapeCasts ⟨2, ![1, N]⟩)
    (hb : (⟨2, ![1, N]⟩ : Shape).Broadcasts ⟨2, ![M, N]⟩) (p : Fin M) (q : Fin N) :
    addf (matmul d none (truncf .bf16 X hx) (truncf .bf16 W hx) (constant ⟨2, ![M, N]⟩ .f32 0x00000000#32))
        (broadcastTo ⟨2, ![M, N]⟩ (shapeCast ⟨2, ![1, N]⟩ b hc) hb) (ix2 p q)
      = affineAt X W b p q := by
  show FloatOps.matmul d none (truncf .bf16 X hx) (truncf .bf16 W hx) (constant ⟨2, ![M, N]⟩ .f32 0x00000000#32) (ix2 p q)
      + broadcastTo ⟨2, ![M, N]⟩ (shapeCast ⟨2, ![1, N]⟩ b hc) hb (ix2 p q) = _
  rw [matmul_plain_zero_apply d hd none _ _ p q, kernel_bias_apply b hc hb p q]
  rfl

/-- A kernel's mixing layer at an entry: two products into zero, added, then the bias row. -/
theorem kernel_mix_apply (d : DotDims ⟨2, ![M, K]⟩ ⟨2, ![K, N]⟩ ⟨2, ![M, N]⟩) (hd : d = DotDims.plain M K N)
    (H₁ H₂ : FVec Ideal ⟨2, ![M, K]⟩ .f32) (Wt Wb : FVec Ideal ⟨2, ![K, N]⟩ .f32) (b : FVec Ideal ⟨1, ![N]⟩ .f32)
    (hx : FTy.bf16.bits < FTy.f32.bits) (hc : (⟨1, ![N]⟩ : Shape).ShapeCasts ⟨2, ![1, N]⟩)
    (hb : (⟨2, ![1, N]⟩ : Shape).Broadcasts ⟨2, ![M, N]⟩) (p : Fin M) (q : Fin N) :
    addf (addf (matmul d none (truncf .bf16 H₁ hx) (truncf .bf16 Wt hx) (constant ⟨2, ![M, N]⟩ .f32 0x00000000#32))
          (matmul d none (truncf .bf16 H₂ hx) (truncf .bf16 Wb hx) (constant ⟨2, ![M, N]⟩ .f32 0x00000000#32)))
        (broadcastTo ⟨2, ![M, N]⟩ (shapeCast ⟨2, ![1, N]⟩ b hc) hb) (ix2 p q)
      = mixAt H₁ H₂ Wt Wb b p q := by
  show (FloatOps.matmul d none (truncf .bf16 H₁ hx) (truncf .bf16 Wt hx) (constant ⟨2, ![M, N]⟩ .f32 0x00000000#32) (ix2 p q)
      + FloatOps.matmul d none (truncf .bf16 H₂ hx) (truncf .bf16 Wb hx) (constant ⟨2, ![M, N]⟩ .f32 0x00000000#32) (ix2 p q))
      + broadcastTo ⟨2, ![M, N]⟩ (shapeCast ⟨2, ![1, N]⟩ b hc) hb (ix2 p q) = _
  rw [matmul_plain_zero_apply d hd none _ _ p q, matmul_plain_zero_apply d hd none _ _ p q, kernel_bias_apply b hc hb p q]
  rfl

/-! ## A host program's spelling -/

/-- The bias as jnp lays it: [N] to [1, N] along axis 1, then [1, N] to [M, N]. -/
theorem host_bias_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => show 0 = if (1 : ℕ) = 1 then 0 else p.val; rw [if_pos rfl]
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

/-- The host's dense layer at an entry. -/
theorem host_affine_apply (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) d none X W)
        (broadcastInDim ⟨2, ![M, N]⟩ ![0, 1] h2 (broadcastInDim ⟨2, ![1, N]⟩ ![1] h1 b)) (ix2 p q)
      = affineAt X W b p q := by
  show Host.dotGeneral (F := Ideal) d none X W (ix2 p q)
      + broadcastInDim ⟨2, ![M, N]⟩ ![0, 1] h2 (broadcastInDim ⟨2, ![1, N]⟩ ![1] h1 b) (ix2 p q) = _
  rw [host_bias_apply b h1 h2 p q]
  simp only [Host.dotGeneral]
  rw [dotGeneral_plain_apply d hd none _ X W p q]
  rfl

/-- The host's mixing layer at an entry: H₁ and H₂ joined side by side against one weight of K + K rows is the mixing
    layer of the weight's first K rows and its last K rows. -/
theorem host_mix_apply {C : ℕ} (hC : K + K = C) (d : DotDims ⟨2, ![M, C]⟩ ⟨2, ![C, N]⟩ ⟨2, ![M, N]⟩) (hd : d = DotDims.plain M C N)
    (H₁ H₂ : FVec Ideal ⟨2, ![M, K]⟩ .f32) (W : FVec Ideal ⟨2, ![C, N]⟩ .f32) (b : FVec Ideal ⟨1, ![N]⟩ .f32)
    (hj : Shape.Concatenates [(⟨2, ![M, K]⟩ : Shape), ⟨2, ![M, K]⟩] ⟨2, ![M, C]⟩ 1)
    (hs0 : (⟨2, ![C, N]⟩ : Shape).Slices ![0, 0] ⟨2, ![K, N]⟩) (hs1 : (⟨2, ![C, N]⟩ : Shape).Slices ![K, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) d none
          (concatenate ⟨2, ![M, C]⟩ 1 [⟨⟨2, ![M, K]⟩, H₁⟩, ⟨⟨2, ![M, K]⟩, H₂⟩] hj) W)
        (broadcastInDim ⟨2, ![M, N]⟩ ![0, 1] h2 (broadcastInDim ⟨2, ![1, N]⟩ ![1] h1 b)) (ix2 p q)
      = mixAt H₁ H₂ (extractStridedSlice ⟨2, ![K, N]⟩ ![0, 0] W hs0) (extractStridedSlice ⟨2, ![K, N]⟩ ![K, 0] W hs1) b p q := by
  show Host.dotGeneral (F := Ideal) d none (concatenate ⟨2, ![M, C]⟩ 1 [⟨⟨2, ![M, K]⟩, H₁⟩, ⟨⟨2, ![M, K]⟩, H₂⟩] hj) W (ix2 p q)
      + broadcastInDim ⟨2, ![M, N]⟩ ![0, 1] h2 (broadcastInDim ⟨2, ![1, N]⟩ ![1] h1 b) (ix2 p q) = _
  rw [host_bias_apply b h1 h2 p q]
  simp only [Host.dotGeneral]
  rw [dotGeneral_plain_apply d hd none _ _ W p q, Cert.PairConcat.sum_split K K C hC]
  unfold mixAt
  refine congrArg (· + b (ix1 q)) (congrArg₂ (· + ·) (Finset.sum_congr rfl fun k _ => ?_) (Finset.sum_congr rfl fun k _ => ?_))
  · rw [Cert.PairConcat.concat_cols_left H₁ H₂ hj p k, slice2_axis0_eq 0 W hs0 k q]
    exact congrArg (fun r => H₁ (ix2 p k) * W (ix2 r q)) (Fin.ext (Nat.zero_add _).symm)
  · rw [Cert.PairConcat.concat_cols_right H₁ H₂ hj p k, slice2_axis0_eq K W hs1 k q]

end Cert.Layers

end
-- ==== Proof.Bodies.lean ====
/-
  What each kernel body stores, read at an entry. The body of the first kernel computes, from its block X of rows,
  the weight W and the bias b, max(X·W + b, 0); the last kernel's the same without the maximum; the two mixing
  kernels' (H₁·Wt + H₂·Wb) + b with and without the maximum. Entry (r, q) of the stored value is the layer's entry
  function of the loaded blocks (a same-shape cast in front of an operand is the identity).
-/
import proofs.«135795_j38517266710885_1_alg».proof.Proof.Gen.KernelIdeal.Skeleton
import proofs.«135795_j38517266710885_1_alg».proof.Proof.LibDenseMixLayers

noncomputable section

namespace Cert.KernelIdeal.Bodies

open Cert.KernelIdeal Cert.KernelIdeal.Gen Idealize.ShloMosaic Idealize.ShloMosaic.ValueIdx Cert.Layers

/-- The first kernel: max(X·W + b, 0) at entry (r, q) of the block. -/
theorem pay0_apply (x : FVec Ideal S5000x256 .f32) (W : FVec Ideal S256x128 .f32) (b : FVec Ideal S128 .f32)
    (r : Fin 5000) (q : Fin 128) :
    k0_pay1 (F := Ideal) x W b (ix2 r q) = relu0 (affineAt x W b r q) :=
  congrArg relu0 (kernel_affine_apply dot_S5000x256_S256x128_S5000x128_1_0_0_1_n_n rfl x W b bitsLt_bf16_f32
    shapeCasts_S128_S1x128 broadcasts_S1x128_S5000x128 r q)

/-- The first mixing kernel: max((H₁·Wt + H₂·Wb) + b, 0) at entry (r, q) of the block. -/
theorem pay1_apply (h1 h2 : FVec Ideal S5000x128 .f32) (Wt Wb : FVec Ideal S128x128 .f32) (b : FVec Ideal S128 .f32)
    (r : Fin 5000) (q : Fin 128) :
    k1_pay1 (F := Ideal) h1 h2 Wt Wb b (ix2 r q) = relu0 (mixAt h1 h2 Wt Wb b r q) := by
  unfold k1_pay1
  simp only [shapeCast_self]
  exact congrArg relu0 (kernel_mix_apply dot_S5000x128_S128x128_S5000x128_1_0_0_1_n_n rfl h1 h2 Wt Wb b bitsLt_bf16_f32
    shapeCasts_S128_S1x128 broadcasts_S1x128_S5000x128 r q)

/-- The second mixing kernel: (H₁·Wt + H₂·Wb) + b at entry (r, q) of the block. -/
theorem pay2_apply (h1 h2 : FVec Ideal S5000x128 .f32) (Wt Wb : FVec Ideal S128x128 .f32) (b : FVec Ideal S128 .f32)
    (r : Fin 5000) (q : Fin 128) :
    k2_pay1 (F := Ideal) h1 h2 Wt Wb b (ix2 r q) = mixAt h1 h2 Wt Wb b r q := by
  unfold k2_pay1
  simp only [shapeCast_self]
  exact kernel_mix_apply dot_S5000x128_S128x128_S5000x128_1_0_0_1_n_n rfl h1 h2 Wt Wb b bitsLt_bf16_f32
    shapeCasts_S128_S1x128 broadcasts_S1x128_S5000x128 r q

/-- The last kernel: X·W + b at entry (r, q) of the block. -/
theorem pay3_apply (x : FVec Ideal S5000x128 .f32) (W : FVec Ideal S128x128 .f32) (b : FVec Ideal S128 .f32)
    (r : Fin 5000) (q : Fin 128) :
    k3_pay1 (F := Ideal) x W b (ix2 r q) = affineAt x W b r q := by
  unfold k3_pay1
  simp only [shapeCast_self]
  exact kernel_affine_apply dot_S5000x128_S128x128_S5000x128_1_0_0_1_n_n rfl x W b bitsLt_bf16_f32
    shapeCasts_S128_S1x128 broadcasts_S1x128_S5000x128 r q

end Cert.KernelIdeal.Bodies

end
-- ==== Proof.Region0.lean ====
/-
  Kernel 0's output array as one function of the arrays it finds. The kernel walks 8 grid points; point t takes rows
  5000·t … 5000·t + 4999 of X : [40000, 256], the whole weight [256, 128] and the whole bias [128], and writes rows 5000·t … of its
  output. An entry of max(X·W + b, 0) depends on one row of X only, so the block point t writes back IS block t of
  max(X·W + b, 0) taken over the whole arrays; the eight blocks tile the output, so the array ends at that function of the
  arrays. Stated for ANY contents V of the buffers when the kernel is entered.
-/
import proofs.«135795_j38517266710885_1_alg».proof.Proof.Gen.KernelIdeal.Frame
import proofs.«135795_j38517266710885_1_alg».proof.Proof.Bodies
import Idealize.ShloMosaic.Lib.Pipeline.Value

set_option maxRecDepth 16384

noncomputable section

namespace Cert.KernelIdeal.Region0

open Cert.KernelIdeal Cert.KernelIdeal.Gen Cert.KernelIdeal.Bodies Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: a row-blocked operand's block moves with the output's along the rows and
    sits at column block 0, a weight and the bias stay at block 0, and the output's row block at point t is t. -/
theorem idx_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

/-- Entry (r, j) of window 0's block at point t is entry (5000·t + r, j) of its array. -/
theorem emb_rows0 (t : Fin cfg0.N) (r : Fin 5000) (j : Fin 256) (h : t.val * 5000 + r.val < 40000) :
    ((cfg0.win 0).blk t).view.emb (ix2 r j) = ix2 (⟨t.val * 5000 + r.val, h⟩ : Fin 40000) j := by
  obtain ⟨e0, e1, e2, e3, e4, e5, e6⟩ := idx_facts t
  funext a; apply Fin.ext
  match a with
  | ⟨0, _⟩ => show win0_0.index t (0 : Fin 2) * 5000 + 1 * r.val = t.val * 5000 + r.val; rw [e0, e5]; omega
  | ⟨1, _⟩ => show win0_0.index t (1 : Fin 2) * 256 + 1 * j.val = j.val; rw [e1]; omega

/-- Window 1's block is its whole array at every point. -/
theorem emb_whole1 (t : Fin cfg0.N) (j : Fin 256) (q : Fin 128) :
    ((cfg0.win 1).blk t).view.emb (ix2 j q) = ix2 j q := by
  obtain ⟨e0, e1, e2, e3, e4, e5, e6⟩ := idx_facts t
  funext a; apply Fin.ext
  match a with
  | ⟨0, _⟩ => show win0_1.index t (0 : Fin 2) * 256 + 1 * j.val = j.val; rw [e2]; omega
  | ⟨1, _⟩ => show win0_1.index t (1 : Fin 2) * 128 + 1 * q.val = q.val; rw [e3]; omega

/-- The bias window's block is the whole bias at every point. -/
theorem emb_bias (t : Fin cfg0.N) (q : Fin 128) :
    ((cfg0.win 2).blk t).view.emb (ix1 q) = ix1 q := by
  obtain ⟨e0, e1, e2, e3, e4, e5, e6⟩ := idx_facts t
  funext a; apply Fin.ext
  match a with
  | ⟨0, _⟩ => show win0_2.index t (0 : Fin 1) * 128 + 1 * q.val = q.val; rw [e4]; omega

/-- Entry (r, q) of the output's block at point t is entry (5000·t + r, q) of the output array. -/
theorem emb_out (t : Fin cfg0.N) (r : Fin 5000) (q : Fin 128) (h : t.val * 5000 + r.val < 40000) :
    ((cfg0.win 3).blk t).view.emb (ix2 r q) = ix2 (⟨t.val * 5000 + r.val, h⟩ : Fin 40000) q := by
  obtain ⟨e0, e1, e2, e3, e4, e5, e6⟩ := idx_facts t
  funext a; apply Fin.ext
  match a with
  | ⟨0, _⟩ => show win0_3.index t (0 : Fin 2) * 5000 + 1 * r.val = t.val * 5000 + r.val; rw [e5]; omega
  | ⟨1, _⟩ => show win0_3.index t (1 : Fin 2) * 128 + 1 * q.val = q.val; rw [e6]; omega

/-- What point t writes back is block t of max(X·W + b, 0) of the whole arrays as the kernel finds them. -/
theorem flushed_eq (c : Dev nD) (t : Fin cfg0.N) :
    (dat0 (F := Ideal) V c).flushed 3 t = ((cfg0.win 3).blk t).view.read (Elt Ideal)
      (denseRelu (V c main_arg0) (V c main_arg1) (V c main_arg2)) := by
  show (cfg0.win 3).cut (grid0.coords t) ((dat0 V c).after 3 t) = _
  rw [after0_3]
  unfold out0_3
  rw [View.canon_unit_zero hz2]
  simp only [View.ld_unit_zero (S := S5000x256) hz2, View.ld_unit_zero (S := S256x128) hz2, View.ld_unit_zero (S := S128) hz1]
  funext y
  obtain ⟨r, q, rfl⟩ : ∃ (r : Fin 5000) (q : Fin 128), y = ix2 r q := ⟨y 0, y 1, eq_ix2 y⟩
  show k0_pay1 (iblk0 V c 0 t) (iblk0 V c 1 t) (iblk0 V c 2 t) (ix2 r q) = _
  have ht : t.val < 8 := lt_of_lt_of_eq t.isLt N_0
  have hrow : t.val * 5000 + r.val < 40000 := by have := r.isLt; omega
  refine (pay0_apply _ _ _ r q).trans ?_
  refine Eq.trans ?_ (congrArg (denseRelu (V c main_arg0) (V c main_arg1) (V c main_arg2)) (emb_out t r q hrow)).symm
  show relu0 (affineAt (iblk0 V c 0 t) (iblk0 V c 1 t) (iblk0 V c 2 t) r q) = relu0 (affineAt (V c main_arg0) (V c main_arg1) (V c main_arg2) (⟨t.val * 5000 + r.val, hrow⟩ : Fin 40000) q)
  refine congrArg relu0 (affineAt_congr _ _ _ _ _ _ r _ q (fun j => ?_) (fun j => ?_) ?_)
  · exact congrArg (fun i => V c main_arg0 i) (emb_rows0 t r j hrow)
  · exact congrArg (fun i => V c main_arg1 i) (emb_whole1 t j q)
  · exact congrArg (fun i => V c main_arg2 i) (emb_bias t q)

/-- An index of the output array is in point t's block iff each coordinate is in the block's range on its axis. -/
theorem mem_blk (t : Fin cfg0.N) (i : S40000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v4).slice (win0_3.rect t)).set ↔ _
  rw [View.set_slice_whole, Rect.mem_set_unit]
  exact Iff.rfl

/-- Every index of the output array is in some point's block: row ρ is in block ρ / 5000. -/
theorem cover (i : S40000x128.Idx) :
    ∃ t : Fin cfg0.N, (cfg0.win 3).flush t = true ∧ i ∈ ((cfg0.win 3).blk t).view.set := by
  have hi0 : (i 0).val < 40000 := (i 0).isLt
  have hi1 : (i 1).val < 128 := (i 1).isLt
  have hlt : (i 0).val / 5000 < grid0.N := by rw [N_0]; omega
  obtain ⟨e0, e1, e2, e3, e4, e5, e6⟩ := idx_facts ⟨(i 0).val / 5000, hlt⟩
  have f0 : win0_3.index ⟨(i 0).val / 5000, hlt⟩ (0 : Fin 2) = (i 0).val / 5000 := e5
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [f0]; omega
  | ⟨1, _⟩ =>
    show win0_3.index ⟨(i 0).val / 5000, hlt⟩ (1 : Fin 2) * 128 ≤ (i 1).val ∧ (i 1).val < win0_3.index ⟨(i 0).val / 5000, hlt⟩ (1 : Fin 2) * 128 + 128
    rw [e6]; omega

/-- The output array after the kernel: max(X·W + b, 0) of the arrays the kernel found. -/
theorem final (c : Dev nD) :
    (dat0 (F := Ideal) V c).arrAt 3 cfg0.N = denseRelu (V c main_arg0) (V c main_arg1) (V c main_arg2) :=
  (dat0 (F := Ideal) V c).arrAt_eq_of_cover 3 _ (fun t _ => flushed_eq V c t) cover

end Cert.KernelIdeal.Region0

end
-- ==== Proof.Region1.lean ====
/-
  Kernel 1's output array as one function of the arrays it finds. The kernel walks 8 grid points; point t takes rows
  5000·t … 5000·t + 4999 of H₁ and of H₂ : [40000, 128], the two whole weights [128, 128] and the whole bias [128], and writes
  rows 5000·t … of its output. An entry of max((H₁·Wt + H₂·Wb) + b, 0) depends on one row of H₁ and the same row of H₂ only, so
  the block point t writes back IS block t of that function of the whole arrays; the eight blocks tile the output, so
  the array ends at it. Stated for ANY contents V of the buffers when the kernel is entered.
-/
import proofs.«135795_j38517266710885_1_alg».proof.Proof.Gen.KernelIdeal.Frame
import proofs.«135795_j38517266710885_1_alg».proof.Proof.Bodies
import Idealize.ShloMosaic.Lib.Pipeline.Value

set_option maxRecDepth 16384

noncomputable section

namespace Cert.KernelIdeal.Region1

open Cert.KernelIdeal Cert.KernelIdeal.Gen Cert.KernelIdeal.Bodies Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: a row-blocked operand's block moves with the output's along the rows and
    sits at column block 0, a weight and the bias stay at block 0, and the output's row block at point t is t. -/
theorem idx_facts : ∀ t : Fin cfg1.N,
    win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = t.val
    ∧ win1_5.index t (1 : Fin 2) = 0 :=
  (by decide +kernel : ∀ t : Fin grid1.N, _)

/-- Entry (r, j) of window 0's block at point t is entry (5000·t + r, j) of its array. -/
theorem emb_rows0 (t : Fin cfg1.N) (r : Fin 5000) (j : Fin 128) (h : t.val * 5000 + r.val < 40000) :
    ((cfg1.win 0).blk t).view.emb (ix2 r j) = ix2 (⟨t.val * 5000 + r.val, h⟩ : Fin 40000) j := by
  obtain ⟨e0, e1, e2, e3, e4, e5, e6, e7, e8, e9, e10⟩ := idx_facts t
  funext a; apply Fin.ext
  match a with
  | ⟨0, _⟩ => show win1_0.index t (0 : Fin 2) * 5000 + 1 * r.val = t.val * 5000 + r.val; rw [e0, e9]; omega
  | ⟨1, _⟩ => show win1_0.index t (1 : Fin 2) * 128 + 1 * j.val = j.val; rw [e1]; omega

/-- Entry (r, j) of window 1's block at point t is entry (5000·t + r, j) of its array. -/
theorem emb_rows1 (t : Fin cfg1.N) (r : Fin 5000) (j : Fin 128) (h : t.val * 5000 + r.val < 40000) :
    ((cfg1.win 1).blk t).view.emb (ix2 r j) = ix2 (⟨t.val * 5000 + r.val, h⟩ : Fin 40000) j := by
  obtain ⟨e0, e1, e2, e3, e4, e5, e6, e7, e8, e9, e10⟩ := idx_facts t
  funext a; apply Fin.ext
  match a with
  | ⟨0, _⟩ => show win1_1.index t (0 : Fin 2) * 5000 + 1 * r.val = t.val * 5000 + r.val; rw [e2, e9]; omega
  | ⟨1, _⟩ => show win1_1.index t (1 : Fin 2) * 128 + 1 * j.val = j.val; rw [e3]; omega

/-- Window 2's block is its whole array at every point. -/
theorem emb_whole2 (t : Fin cfg1.N) (j : Fin 128) (q : Fin 128) :
    ((cfg1.win 2).blk t).view.emb (ix2 j q) = ix2 j q := by
  obtain ⟨e0, e1, e2, e3, e4, e5, e6, e7, e8, e9, e10⟩ := idx_facts t
  funext a; apply Fin.ext
  match a with
  | ⟨0, _⟩ => show win1_2.index t (0 : Fin 2) * 128 + 1 * j.val = j.val; rw [e4]; omega
  | ⟨1, _⟩ => show win1_2.index t (1 : Fin 2) * 128 + 1 * q.val = q.val; rw [e5]; omega

/-- Window 3's block is its whole array at every point. -/
theorem emb_whole3 (t : Fin cfg1.N) (j : Fin 128) (q : Fin 128) :
    ((cfg1.win 3).blk t).view.emb (ix2 j q) = ix2 j q := by
  obtain ⟨e0, e1, e2, e3, e4, e5, e6, e7, e8, e9, e10⟩ := idx_facts t
  funext a; apply Fin.ext
  match a with
  | ⟨0, _⟩ => show win1_3.index t (0 : Fin 2) * 128 + 1 * j.val = j.val; rw [e6]; omega
  | ⟨1, _⟩ => show win1_3.index t (1 : Fin 2) * 128 + 1 * q.val = q.val; rw [e7]; omega

/-- The bias window's block is the whole bias at every point. -/
theorem emb_bias (t : Fin cfg1.N) (q : Fin 128) :
    ((cfg1.win 4).blk t).view.emb (ix1 q) = ix1 q := by
  obtain ⟨e0, e1, e2, e3, e4, e5, e6, e7, e8, e9, e10⟩ := idx_facts t
  funext a; apply Fin.ext
  match a with
  | ⟨0, _⟩ => show win1_4.index t (0 : Fin 1) * 128 + 1 * q.val = q.val; rw [e8]; omega

/-- Entry (r, q) of the output's block at point t is entry (5000·t + r, q) of the output array. -/
theorem emb_out (t : Fin cfg1.N) (r : Fin 5000) (q : Fin 128) (h : t.val * 5000 + r.val < 40000) :
    ((cfg1.win 5).blk t).view.emb (ix2 r q) = ix2 (⟨t.val * 5000 + r.val, h⟩ : Fin 40000) q := by
  obtain ⟨e0, e1, e2, e3, e4, e5, e6, e7, e8, e9, e10⟩ := idx_facts t
  funext a; apply Fin.ext
  match a with
  | ⟨0, _⟩ => show win1_5.index t (0 : Fin 2) * 5000 + 1 * r.val = t.val * 5000 + r.val; rw [e9]; omega
  | ⟨1, _⟩ => show win1_5.index t (1 : Fin 2) * 128 + 1 * q.val = q.val; rw [e10]; omega

/-- What point t writes back is block t of max((H₁·Wt + H₂·Wb) + b, 0) of the whole arrays as the kernel finds them. -/
theorem flushed_eq (c : Dev nD) (t : Fin cfg1.N) :
    (dat1 (F := Ideal) V c).flushed 5 t = ((cfg1.win 5).blk t).view.read (Elt Ideal)
      (mixRelu (V c main_v23) (V c main_v42) (V c main_v43) (V c main_v44) (V c main_arg4)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  funext y
  obtain ⟨r, q, rfl⟩ : ∃ (r : Fin 5000) (q : Fin 128), y = ix2 r q := ⟨y 0, y 1, eq_ix2 y⟩
  show k1_pay1 (iblk1 V c 0 t) (iblk1 V c 1 t) (iblk1 V c 2 t) (iblk1 V c 3 t) (iblk1 V c 4 t) (ix2 r q) = _
  have ht : t.val < 8 := lt_of_lt_of_eq t.isLt N_1
  have hrow : t.val * 5000 + r.val < 40000 := by have := r.isLt; omega
  refine (pay1_apply _ _ _ _ _ r q).trans ?_
  refine Eq.trans ?_ (congrArg (mixRelu (V c main_v23) (V c main_v42) (V c main_v43) (V c main_v44) (V c main_arg4)) (emb_out t r q hrow)).symm
  show relu0 (mixAt (iblk1 V c 0 t) (iblk1 V c 1 t) (iblk1 V c 2 t) (iblk1 V c 3 t) (iblk1 V c 4 t) r q) = relu0 (mixAt (V c main_v23) (V c main_v42) (V c main_v43) (V c main_v44) (V c main_arg4) (⟨t.val * 5000 + r.val, hrow⟩ : Fin 40000) q)
  refine congrArg relu0 (mixAt_congr _ _ _ _ _ _ _ _ _ _ r _ q (fun j => ?_) (fun j => ?_) (fun j => ?_) (fun j => ?_) ?_)
  · exact congrArg (fun i => V c main_v23 i) (emb_rows0 t r j hrow)
  · exact congrArg (fun i => V c main_v42 i) (emb_rows1 t r j hrow)
  · exact congrArg (fun i => V c main_v43 i) (emb_whole2 t j q)
  · exact congrArg (fun i => V c main_v44 i) (emb_whole3 t j q)
  · exact congrArg (fun i => V c main_arg4 i) (emb_bias t q)

/-- An index of the output array is in point t's block iff each coordinate is in the block's range on its axis. -/
theorem mem_blk (t : Fin cfg1.N) (i : S40000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- Every index of the output array is in some point's block: row ρ is in block ρ / 5000. -/
theorem cover (i : S40000x128.Idx) :
    ∃ t : Fin cfg1.N, (cfg1.win 5).flush t = true ∧ i ∈ ((cfg1.win 5).blk t).view.set := by
  have hi0 : (i 0).val < 40000 := (i 0).isLt
  have hi1 : (i 1).val < 128 := (i 1).isLt
  have hlt : (i 0).val / 5000 < grid1.N := by rw [N_1]; omega
  obtain ⟨e0, e1, e2, e3, e4, e5, e6, e7, e8, e9, e10⟩ := idx_facts ⟨(i 0).val / 5000, hlt⟩
  have f0 : win1_5.index ⟨(i 0).val / 5000, hlt⟩ (0 : Fin 2) = (i 0).val / 5000 := e9
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [f0]; omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    rw [e10]; omega

/-- The output array after the kernel: max((H₁·Wt + H₂·Wb) + b, 0) of the arrays the kernel found. -/
theorem final (c : Dev nD) :
    (dat1 (F := Ideal) V c).arrAt 5 cfg1.N = mixRelu (V c main_v23) (V c main_v42) (V c main_v43) (V c main_v44) (V c main_arg4) :=
  (dat1 (F := Ideal) V c).arrAt_eq_of_cover 5 _ (fun t _ => flushed_eq V c t) cover

end Cert.KernelIdeal.Region1

end
-- ==== Proof.Region2.lean ====
/-
  Kernel 2's output array as one function of the arrays it finds. The kernel walks 8 grid points; point t takes rows
  5000·t … 5000·t + 4999 of H₁ and of H₂ : [40000, 128], the two whole weights [128, 128] and the whole bias [128], and writes
  rows 5000·t … of its output. An entry of (H₁·Wt + H₂·Wb) + b depends on one row of H₁ and the same row of H₂ only, so
  the block point t writes back IS block t of that function of the whole arrays; the eight blocks tile the output, so
  the array ends at it. Stated for ANY contents V of the buffers when the kernel is entered.
-/
import proofs.«135795_j38517266710885_1_alg».proof.Proof.Gen.KernelIdeal.Frame
import proofs.«135795_j38517266710885_1_alg».proof.Proof.Bodies
import Idealize.ShloMosaic.Lib.Pipeline.Value

set_option maxRecDepth 16384

noncomputable section

namespace Cert.KernelIdeal.Region2

open Cert.KernelIdeal Cert.KernelIdeal.Gen Cert.KernelIdeal.Bodies Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: a row-blocked operand's block moves with the output's along the rows and
    sits at column block 0, a weight and the bias stay at block 0, and the output's row block at point t is t. -/
theorem idx_facts : ∀ t : Fin cfg2.N,
    win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 2) = t.val
    ∧ win2_5.index t (1 : Fin 2) = 0 :=
  (by decide +kernel : ∀ t : Fin grid2.N, _)

/-- Entry (r, j) of window 0's block at point t is entry (5000·t + r, j) of its array. -/
theorem emb_rows0 (t : Fin cfg2.N) (r : Fin 5000) (j : Fin 128) (h : t.val * 5000 + r.val < 40000) :
    ((cfg2.win 0).blk t).view.emb (ix2 r j) = ix2 (⟨t.val * 5000 + r.val, h⟩ : Fin 40000) j := by
  obtain ⟨e0, e1, e2, e3, e4, e5, e6, e7, e8, e9, e10⟩ := idx_facts t
  funext a; apply Fin.ext
  match a with
  | ⟨0, _⟩ => show win2_0.index t (0 : Fin 2) * 5000 + 1 * r.val = t.val * 5000 + r.val; rw [e0, e9]; omega
  | ⟨1, _⟩ => show win2_0.index t (1 : Fin 2) * 128 + 1 * j.val = j.val; rw [e1]; omega

/-- Entry (r, j) of window 1's block at point t is entry (5000·t + r, j) of its array. -/
theorem emb_rows1 (t : Fin cfg2.N) (r : Fin 5000) (j : Fin 128) (h : t.val * 5000 + r.val < 40000) :
    ((cfg2.win 1).blk t).view.emb (ix2 r j) = ix2 (⟨t.val * 5000 + r.val, h⟩ : Fin 40000) j := by
  obtain ⟨e0, e1, e2, e3, e4, e5, e6, e7, e8, e9, e10⟩ := idx_facts t
  funext a; apply Fin.ext
  match a with
  | ⟨0, _⟩ => show win2_1.index t (0 : Fin 2) * 5000 + 1 * r.val = t.val * 5000 + r.val; rw [e2, e9]; omega
  | ⟨1, _⟩ => show win2_1.index t (1 : Fin 2) * 128 + 1 * j.val = j.val; rw [e3]; omega

/-- Window 2's block is its whole array at every point. -/
theorem emb_whole2 (t : Fin cfg2.N) (j : Fin 128) (q : Fin 128) :
    ((cfg2.win 2).blk t).view.emb (ix2 j q) = ix2 j q := by
  obtain ⟨e0, e1, e2, e3, e4, e5, e6, e7, e8, e9, e10⟩ := idx_facts t
  funext a; apply Fin.ext
  match a with
  | ⟨0, _⟩ => show win2_2.index t (0 : Fin 2) * 128 + 1 * j.val = j.val; rw [e4]; omega
  | ⟨1, _⟩ => show win2_2.index t (1 : Fin 2) * 128 + 1 * q.val = q.val; rw [e5]; omega

/-- Window 3's block is its whole array at every point. -/
theorem emb_whole3 (t : Fin cfg2.N) (j : Fin 128) (q : Fin 128) :
    ((cfg2.win 3).blk t).view.emb (ix2 j q) = ix2 j q := by
  obtain ⟨e0, e1, e2, e3, e4, e5, e6, e7, e8, e9, e10⟩ := idx_facts t
  funext a; apply Fin.ext
  match a with
  | ⟨0, _⟩ => show win2_3.index t (0 : Fin 2) * 128 + 1 * j.val = j.val; rw [e6]; omega
  | ⟨1, _⟩ => show win2_3.index t (1 : Fin 2) * 128 + 1 * q.val = q.val; rw [e7]; omega

/-- The bias window's block is the whole bias at every point. -/
theorem emb_bias (t : Fin cfg2.N) (q : Fin 128) :
    ((cfg2.win 4).blk t).view.emb (ix1 q) = ix1 q := by
  obtain ⟨e0, e1, e2, e3, e4, e5, e6, e7, e8, e9, e10⟩ := idx_facts t
  funext a; apply Fin.ext
  match a with
  | ⟨0, _⟩ => show win2_4.index t (0 : Fin 1) * 128 + 1 * q.val = q.val; rw [e8]; omega

/-- Entry (r, q) of the output's block at point t is entry (5000·t + r, q) of the output array. -/
theorem emb_out (t : Fin cfg2.N) (r : Fin 5000) (q : Fin 128) (h : t.val * 5000 + r.val < 40000) :
    ((cfg2.win 5).blk t).view.emb (ix2 r q) = ix2 (⟨t.val * 5000 + r.val, h⟩ : Fin 40000) q := by
  obtain ⟨e0, e1, e2, e3, e4, e5, e6, e7, e8, e9, e10⟩ := idx_facts t
  funext a; apply Fin.ext
  match a with
  | ⟨0, _⟩ => show win2_5.index t (0 : Fin 2) * 5000 + 1 * r.val = t.val * 5000 + r.val; rw [e9]; omega
  | ⟨1, _⟩ => show win2_5.index t (1 : Fin 2) * 128 + 1 * q.val = q.val; rw [e10]; omega

/-- What point t writes back is block t of (H₁·Wt + H₂·Wb) + b of the whole arrays as the kernel finds them. -/
theorem flushed_eq (c : Dev nD) (t : Fin cfg2.N) :
    (dat2 (F := Ideal) V c).flushed 5 t = ((cfg2.win 5).blk t).view.read (Elt Ideal)
      (mix (V c main_v64) (V c main_v83) (V c main_v84) (V c main_v85) (V c main_arg6)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S128) hz1]
  funext y
  obtain ⟨r, q, rfl⟩ : ∃ (r : Fin 5000) (q : Fin 128), y = ix2 r q := ⟨y 0, y 1, eq_ix2 y⟩
  show k2_pay1 (iblk2 V c 0 t) (iblk2 V c 1 t) (iblk2 V c 2 t) (iblk2 V c 3 t) (iblk2 V c 4 t) (ix2 r q) = _
  have ht : t.val < 8 := lt_of_lt_of_eq t.isLt N_2
  have hrow : t.val * 5000 + r.val < 40000 := by have := r.isLt; omega
  refine (pay2_apply _ _ _ _ _ r q).trans ?_
  refine Eq.trans ?_ (congrArg (mix (V c main_v64) (V c main_v83) (V c main_v84) (V c main_v85) (V c main_arg6)) (emb_out t r q hrow)).symm
  show (mixAt (iblk2 V c 0 t) (iblk2 V c 1 t) (iblk2 V c 2 t) (iblk2 V c 3 t) (iblk2 V c 4 t) r q) = (mixAt (V c main_v64) (V c main_v83) (V c main_v84) (V c main_v85) (V c main_arg6) (⟨t.val * 5000 + r.val, hrow⟩ : Fin 40000) q)
  refine mixAt_congr _ _ _ _ _ _ _ _ _ _ r _ q (fun j => ?_) (fun j => ?_) (fun j => ?_) (fun j => ?_) ?_
  · exact congrArg (fun i => V c main_v64 i) (emb_rows0 t r j hrow)
  · exact congrArg (fun i => V c main_v83 i) (emb_rows1 t r j hrow)
  · exact congrArg (fun i => V c main_v84 i) (emb_whole2 t j q)
  · exact congrArg (fun i => V c main_v85 i) (emb_whole3 t j q)
  · exact congrArg (fun i => V c main_arg6 i) (emb_bias t q)

/-- An index of the output array is in point t's block iff each coordinate is in the block's range on its axis. -/
theorem mem_blk (t : Fin cfg2.N) (i : S40000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v86).slice (win2_5.rect t)).set ↔ _
  rw [View.set_slice_whole, Rect.mem_set_unit]
  exact Iff.rfl

/-- Every index of the output array is in some point's block: row ρ is in block ρ / 5000. -/
theorem cover (i : S40000x128.Idx) :
    ∃ t : Fin cfg2.N, (cfg2.win 5).flush t = true ∧ i ∈ ((cfg2.win 5).blk t).view.set := by
  have hi0 : (i 0).val < 40000 := (i 0).isLt
  have hi1 : (i 1).val < 128 := (i 1).isLt
  have hlt : (i 0).val / 5000 < grid2.N := by rw [N_2]; omega
  obtain ⟨e0, e1, e2, e3, e4, e5, e6, e7, e8, e9, e10⟩ := idx_facts ⟨(i 0).val / 5000, hlt⟩
  have f0 : win2_5.index ⟨(i 0).val / 5000, hlt⟩ (0 : Fin 2) = (i 0).val / 5000 := e9
  refine ⟨⟨(i 0).val / 5000, hlt⟩, flush2_5 _, ?_⟩
  rw [mem_blk]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [f0]; omega
  | ⟨1, _⟩ =>
    show win2_5.index ⟨(i 0).val / 5000, hlt⟩ (1 : Fin 2) * 128 ≤ (i 1).val ∧ (i 1).val < win2_5.index ⟨(i 0).val / 5000, hlt⟩ (1 : Fin 2) * 128 + 128
    rw [e10]; omega

/-- The output array after the kernel: (H₁·Wt + H₂·Wb) + b of the arrays the kernel found. -/
theorem final (c : Dev nD) :
    (dat2 (F := Ideal) V c).arrAt 5 cfg2.N = mix (V c main_v64) (V c main_v83) (V c main_v84) (V c main_v85) (V c main_arg6) :=
  (dat2 (F := Ideal) V c).arrAt_eq_of_cover 5 _ (fun t _ => flushed_eq V c t) cover

end Cert.KernelIdeal.Region2

end
-- ==== Proof.Region3.lean ====
/-
  Kernel 3's output array as one function of the arrays it finds. The kernel walks 8 grid points; point t takes rows
  5000·t … 5000·t + 4999 of X : [40000, 128], the whole weight [128, 128] and the whole bias [128], and writes rows 5000·t … of its
  output. An entry of X·W + b depends on one row of X only, so the block point t writes back IS block t of
  X·W + b taken over the whole arrays; the eight blocks tile the output, so the array ends at that function of the
  arrays. Stated for ANY contents V of the buffers when the kernel is entered.
-/
import proofs.«135795_j38517266710885_1_alg».proof.Proof.Gen.KernelIdeal.Frame
import proofs.«135795_j38517266710885_1_alg».proof.Proof.Bodies
import Idealize.ShloMosaic.Lib.Pipeline.Value

set_option maxRecDepth 16384

noncomputable section

namespace Cert.KernelIdeal.Region3

open Cert.KernelIdeal Cert.KernelIdeal.Gen Cert.KernelIdeal.Bodies Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: a row-blocked operand's block moves with the output's along the rows and
    sits at column block 0, a weight and the bias stay at block 0, and the output's row block at point t is t. -/
theorem idx_facts : ∀ t : Fin cfg3.N,
    win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 1) = 0
    ∧ win3_3.index t (0 : Fin 2) = t.val
    ∧ win3_3.index t (1 : Fin 2) = 0 :=
  (by decide +kernel : ∀ t : Fin grid3.N, _)

/-- Entry (r, j) of window 0's block at point t is entry (5000·t + r, j) of its array. -/
theorem emb_rows0 (t : Fin cfg3.N) (r : Fin 5000) (j : Fin 128) (h : t.val * 5000 + r.val < 40000) :
    ((cfg3.win 0).blk t).view.emb (ix2 r j) = ix2 (⟨t.val * 5000 + r.val, h⟩ : Fin 40000) j := by
  obtain ⟨e0, e1, e2, e3, e4, e5, e6⟩ := idx_facts t
  funext a; apply Fin.ext
  match a with
  | ⟨0, _⟩ => show win3_0.index t (0 : Fin 2) * 5000 + 1 * r.val = t.val * 5000 + r.val; rw [e0, e5]; omega
  | ⟨1, _⟩ => show win3_0.index t (1 : Fin 2) * 128 + 1 * j.val = j.val; rw [e1]; omega

/-- Window 1's block is its whole array at every point. -/
theorem emb_whole1 (t : Fin cfg3.N) (j : Fin 128) (q : Fin 128) :
    ((cfg3.win 1).blk t).view.emb (ix2 j q) = ix2 j q := by
  obtain ⟨e0, e1, e2, e3, e4, e5, e6⟩ := idx_facts t
  funext a; apply Fin.ext
  match a with
  | ⟨0, _⟩ => show win3_1.index t (0 : Fin 2) * 128 + 1 * j.val = j.val; rw [e2]; omega
  | ⟨1, _⟩ => show win3_1.index t (1 : Fin 2) * 128 + 1 * q.val = q.val; rw [e3]; omega

/-- The bias window's block is the whole bias at every point. -/
theorem emb_bias (t : Fin cfg3.N) (q : Fin 128) :
    ((cfg3.win 2).blk t).view.emb (ix1 q) = ix1 q := by
  obtain ⟨e0, e1, e2, e3, e4, e5, e6⟩ := idx_facts t
  funext a; apply Fin.ext
  match a with
  | ⟨0, _⟩ => show win3_2.index t (0 : Fin 1) * 128 + 1 * q.val = q.val; rw [e4]; omega

/-- Entry (r, q) of the output's block at point t is entry (5000·t + r, q) of the output array. -/
theorem emb_out (t : Fin cfg3.N) (r : Fin 5000) (q : Fin 128) (h : t.val * 5000 + r.val < 40000) :
    ((cfg3.win 3).blk t).view.emb (ix2 r q) = ix2 (⟨t.val * 5000 + r.val, h⟩ : Fin 40000) q := by
  obtain ⟨e0, e1, e2, e3, e4, e5, e6⟩ := idx_facts t
  funext a; apply Fin.ext
  match a with
  | ⟨0, _⟩ => show win3_3.index t (0 : Fin 2) * 5000 + 1 * r.val = t.val * 5000 + r.val; rw [e5]; omega
  | ⟨1, _⟩ => show win3_3.index t (1 : Fin 2) * 128 + 1 * q.val = q.val; rw [e6]; omega

/-- What point t writes back is block t of X·W + b of the whole arrays as the kernel finds them. -/
theorem flushed_eq (c : Dev nD) (t : Fin cfg3.N) :
    (dat3 (F := Ideal) V c).flushed 3 t = ((cfg3.win 3).blk t).view.read (Elt Ideal)
      (dense (V c main_v86) (V c main_arg7) (V c main_arg8)) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S128x128) hz2, View.ld_unit_zero (S := S128) hz1]
  funext y
  obtain ⟨r, q, rfl⟩ : ∃ (r : Fin 5000) (q : Fin 128), y = ix2 r q := ⟨y 0, y 1, eq_ix2 y⟩
  show k3_pay1 (iblk3 V c 0 t) (iblk3 V c 1 t) (iblk3 V c 2 t) (ix2 r q) = _
  have ht : t.val < 8 := lt_of_lt_of_eq t.isLt N_3
  have hrow : t.val * 5000 + r.val < 40000 := by have := r.isLt; omega
  refine (pay3_apply _ _ _ r q).trans ?_
  refine Eq.trans ?_ (congrArg (dense (V c main_v86) (V c main_arg7) (V c main_arg8)) (emb_out t r q hrow)).symm
  show (affineAt (iblk3 V c 0 t) (iblk3 V c 1 t) (iblk3 V c 2 t) r q) = (affineAt (V c main_v86) (V c main_arg7) (V c main_arg8) (⟨t.val * 5000 + r.val, hrow⟩ : Fin 40000) q)
  refine affineAt_congr _ _ _ _ _ _ r _ q (fun j => ?_) (fun j => ?_) ?_
  · exact congrArg (fun i => V c main_v86 i) (emb_rows0 t r j hrow)
  · exact congrArg (fun i => V c main_arg7 i) (emb_whole1 t j q)
  · exact congrArg (fun i => V c main_arg8 i) (emb_bias t q)

/-- An index of the output array is in point t's block iff each coordinate is in the block's range on its axis. -/
theorem mem_blk (t : Fin cfg3.N) (i : S40000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v87).slice (win3_3.rect t)).set ↔ _
  rw [View.set_slice_whole, Rect.mem_set_unit]
  exact Iff.rfl

/-- Every index of the output array is in some point's block: row ρ is in block ρ / 5000. -/
theorem cover (i : S40000x128.Idx) :
    ∃ t : Fin cfg3.N, (cfg3.win 3).flush t = true ∧ i ∈ ((cfg3.win 3).blk t).view.set := by
  have hi0 : (i 0).val < 40000 := (i 0).isLt
  have hi1 : (i 1).val < 128 := (i 1).isLt
  have hlt : (i 0).val / 5000 < grid3.N := by rw [N_3]; omega
  obtain ⟨e0, e1, e2, e3, e4, e5, e6⟩ := idx_facts ⟨(i 0).val / 5000, hlt⟩
  have f0 : win3_3.index ⟨(i 0).val / 5000, hlt⟩ (0 : Fin 2) = (i 0).val / 5000 := e5
  refine ⟨⟨(i 0).val / 5000, hlt⟩, flush3_3 _, ?_⟩
  rw [mem_blk]
  intro a
  match a with
  | ⟨0, _⟩ =>
    show win3_3.index ⟨(i 0).val / 5000, hlt⟩ (0 : Fin 2) * 5000 ≤ (i 0).val ∧ (i 0).val < win3_3.index ⟨(i 0).val / 5000, hlt⟩ (0 : Fin 2) * 5000 + 5000
    rw [f0]; omega
  | ⟨1, _⟩ =>
    show win3_3.index ⟨(i 0).val / 5000, hlt⟩ (1 : Fin 2) * 128 ≤ (i 1).val ∧ (i 1).val < win3_3.index ⟨(i 0).val / 5000, hlt⟩ (1 : Fin 2) * 128 + 128
    rw [e6]; omega

/-- The output array after the kernel: X·W + b of the arrays the kernel found. -/
theorem final (c : Dev nD) :
    (dat3 (F := Ideal) V c).arrAt 3 cfg3.N = dense (V c main_v86) (V c main_arg7) (V c main_arg8) :=
  (dat3 (F := Ideal) V c).arrAt_eq_of_cover 3 _ (fun t _ => flushed_eq V c t) cover

end Cert.KernelIdeal.Region3

end
-- ==== Proof.Chain.lean ====
/-
  The host operations the program runs between its kernels, as functions of whole arrays.

  The edge list is an integer array [2, 640000]: row 0 holds each edge's source node, row 1 its destination. The mean
  aggregate of a feature array h : [40000, 128] gathers h's rows at the sources (a negative index wrapped by 40000
  first), adds them into a zero array at the destinations, and divides each node's row by max(in-degree, 1), the
  in-degree being the same scatter of ones. It is ONE function of h and the two index vectors; the proof never opens
  it: both programs apply the same operations, so it is carried as a name.

  The whole computation: a dense layer with the maximum, then twice (the aggregate of the features, the aggregate of
  that, and a mixing layer of the two against the upper and lower halves of a [256, 128] weight — with the maximum the
  first time, without it the second), then a dense layer.
-/
import proofs.«135795_j38517266710885_1_alg».proof.KernelIdeal
import proofs.«135795_j38517266710885_1_alg».proof.Proof.Gen.KernelIdeal
import proofs.«135795_j38517266710885_1_alg».proof.Proof.LibDenseMixLayers

noncomputable section

namespace Cert.KernelIdeal.Chain

open Cert.KernelIdeal Cert.KernelIdeal.Facts₀ Cert.KernelIdeal.Facts Idealize.ShloMosaic Cert.Layers

/-- A feature array: one row of 128 per node. -/
abbrev Feat : Type := FVec Ideal S40000x128 .f32
/-- One node index per edge. -/
abbrev Ends : Type := (⟨S640000, .i32⟩ : BufTy).Contents (Elt Ideal)
/-- The edge list. -/
abbrev EdgeList : Type := (⟨S2x640000, .i32⟩ : BufTy).Contents (Elt Ideal)

/-- The edges' sources: row 0 of the edge list. -/
def srcOf (ei : EdgeList) : Ends :=
  shapeCast _ (extractStridedSlice S1x640000 ![0, 0] ei slices_S2x640000_S1x640000_0_0) shapeCasts_S1x640000_S640000

/-- The edges' destinations: row 1 of the edge list. -/
def dstOf (ei : EdgeList) : Ends :=
  shapeCast _ (extractStridedSlice S1x640000 ![1, 0] ei slices_S2x640000_S1x640000_1_0) shapeCasts_S1x640000_S640000

/-- The mean over each node's in-edges of the source rows of h (a node with no in-edge gets the zero row). -/
def agg (h : Feat) (s d : Ends) : Feat :=
  Host.divf (F := Ideal)
    (Host.scatterAdd (F := Ideal) scatter_S40000x128_S640000x1_S640000x128_1_0_0_1
      (broadcastInDim S40000x128 ![] bcast_S_S40000x128 (constant (F := Ideal) S_ .f32 0x00000000#32))
      (broadcastInDim S640000x1 ![0] bcast_S640000_S640000x1_0 d)
      (Host.gather gather_S40000x128_S640000x1_S640000x128_1_0_n_n_0_1_1128 h
        (broadcastInDim S640000x1 ![0] bcast_S640000_S640000x1_0
          (select (cmpi .slt s (broadcastInDim S640000 ![] bcast_S_S640000 (constantI S_ 32 0#32)))
            (addi s (broadcastInDim S640000 ![] bcast_S_S640000 (constantI S_ 32 40000#32))) s))))
    (broadcastInDim S40000x128 ![0, 1] bcast_S40000x1_S40000x128_0_1
      (broadcastInDim S40000x1 ![0] bcast_S40000_S40000x1_0
        (maximumf
          (Host.scatterAdd (F := Ideal) scatter_S40000_S640000x1_S640000_n_0_0_1
            (broadcastInDim S40000 ![] bcast_S_S40000 (constant (F := Ideal) S_ .f32 0x00000000#32))
            (broadcastInDim S640000x1 ![0] bcast_S640000_S640000x1_0 d)
            (broadcastInDim S640000 ![] bcast_S_S640000 (constant (F := Ideal) S_ .f32 0x3F800000#32)))
          (broadcastInDim S40000 ![] bcast_S_S40000 (constant (F := Ideal) S_ .f32 0x3F800000#32)))))

/-- The upper half (rows 0 … 127) of a mixing weight. -/
def upper (W : FVec Ideal S256x128 .f32) : FVec Ideal S128x128 .f32 :=
  extractStridedSlice S128x128 ![0, 0] W slices_S256x128_S128x128_0_0

/-- The lower half (rows 128 … 255) of a mixing weight. -/
def lower (W : FVec Ideal S256x128 .f32) : FVec Ideal S128x128 .f32 :=
  extractStridedSlice S128x128 ![128, 0] W slices_S256x128_S128x128_128_0

/-- One hop pair and its mixing layer, with the maximum. -/
def stageRelu (h : Feat) (s d : Ends) (W : FVec Ideal S256x128 .f32) (b : FVec Ideal S128 .f32) : Feat :=
  mixRelu (agg h s d) (agg (agg h s d) s d) (upper W) (lower W) b

/-- One hop pair and its mixing layer, without the maximum. -/
def stage (h : Feat) (s d : Ends) (W : FVec Ideal S256x128 .f32) (b : FVec Ideal S128 .f32) : Feat :=
  mix (agg h s d) (agg (agg h s d) s d) (upper W) (lower W) b

/-- The encoder: the result array as one function of the ten argument arrays. -/
def encoder (x : FVec Ideal S40000x256 .f32) (Win : FVec Ideal S256x128 .f32) (bin : FVec Ideal S128 .f32)
    (W0 : FVec Ideal S256x128 .f32) (b0 : FVec Ideal S128 .f32) (W1 : FVec Ideal S256x128 .f32) (b1 : FVec Ideal S128 .f32)
    (Wout : FVec Ideal S128x128 .f32) (bout : FVec Ideal S128 .f32) (ei : EdgeList) : Feat :=
  dense (stage (stageRelu (denseRelu x Win bin) (srcOf ei) (dstOf ei) W0 b0) (srcOf ei) (dstOf ei) W1 b1) Wout bout

end Cert.KernelIdeal.Chain

end
-- ==== Proof.KernelValue.lean ====
/-
  The kernel program's result as one function of its ten arguments. The buffers' contents at the seven boundaries of
  the program are a fold from the launch memory; here the fold is read buffer by buffer. The first stretch of host
  operations cuts the edge list into its two rows and leaves the arguments alone. Each kernel leaves its output array
  at its layer of the arrays it found (the four region modules) and every other buffer as it was. Each of the two
  middle stretches computes a mean aggregate of the previous kernel's output, the aggregate of that, and the two
  halves of a mixing weight, and leaves the rest alone. Composing these readings, the result buffer ends at the
  encoder of the arguments.
-/
import proofs.«135795_j38517266710885_1_alg».proof.Proof.Gen.KernelIdeal.Frame
import proofs.«135795_j38517266710885_1_alg».proof.Proof.KernelRun
import proofs.«135795_j38517266710885_1_alg».proof.Proof.Region0
import proofs.«135795_j38517266710885_1_alg».proof.Proof.Region1
import proofs.«135795_j38517266710885_1_alg».proof.Proof.Region2
import proofs.«135795_j38517266710885_1_alg».proof.Proof.Region3
import proofs.«135795_j38517266710885_1_alg».proof.Proof.Chain
import Idealize.ShloMosaic.Lib.StableHlo.Run

set_option maxRecDepth 16384

noncomputable section

namespace Cert.KernelIdeal.KValue

open Cert.KernelIdeal Cert.KernelIdeal.Gen Cert.KernelIdeal.Chain Cert.Layers
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The first stretch: the edge list's two rows; every argument as launched -/

theorem W1_arg0 : W1 m ρ c (Proc.devRef .tc main_arg0) = m ((c : Thread nD τ).loc main_arg0) := by
  show StableHlo.after hostOps0 (W0 m ρ c) (Proc.devRef .tc main_arg0) = _
  after_results_simp
theorem W1_arg1 : W1 m ρ c (Proc.devRef .tc main_arg1) = m ((c : Thread nD τ).loc main_arg1) := by
  show StableHlo.after hostOps0 (W0 m ρ c) (Proc.devRef .tc main_arg1) = _
  after_results_simp
theorem W1_arg2 : W1 m ρ c (Proc.devRef .tc main_arg2) = m ((c : Thread nD τ).loc main_arg2) := by
  show StableHlo.after hostOps0 (W0 m ρ c) (Proc.devRef .tc main_arg2) = _
  after_results_simp
theorem W1_arg3 : W1 m ρ c (Proc.devRef .tc main_arg3) = m ((c : Thread nD τ).loc main_arg3) := by
  show StableHlo.after hostOps0 (W0 m ρ c) (Proc.devRef .tc main_arg3) = _
  after_results_simp
theorem W1_arg4 : W1 m ρ c (Proc.devRef .tc main_arg4) = m ((c : Thread nD τ).loc main_arg4) := by
  show StableHlo.after hostOps0 (W0 m ρ c) (Proc.devRef .tc main_arg4) = _
  after_results_simp
theorem W1_arg5 : W1 m ρ c (Proc.devRef .tc main_arg5) = m ((c : Thread nD τ).loc main_arg5) := by
  show StableHlo.after hostOps0 (W0 m ρ c) (Proc.devRef .tc main_arg5) = _
  after_results_simp
theorem W1_arg6 : W1 m ρ c (Proc.devRef .tc main_arg6) = m ((c : Thread nD τ).loc main_arg6) := by
  show StableHlo.after hostOps0 (W0 m ρ c) (Proc.devRef .tc main_arg6) = _
  after_results_simp
theorem W1_arg7 : W1 m ρ c (Proc.devRef .tc main_arg7) = m ((c : Thread nD τ).loc main_arg7) := by
  show StableHlo.after hostOps0 (W0 m ρ c) (Proc.devRef .tc main_arg7) = _
  after_results_simp
theorem W1_arg8 : W1 m ρ c (Proc.devRef .tc main_arg8) = m ((c : Thread nD τ).loc main_arg8) := by
  show StableHlo.after hostOps0 (W0 m ρ c) (Proc.devRef .tc main_arg8) = _
  after_results_simp

/-- The sources: row 0 of the edge list. -/
theorem W1_v1 : W1 m ρ c (Proc.devRef .tc main_v1) = srcOf (m ((c : Thread nD τ).loc main_arg9)) := by
  show StableHlo.after hostOps0 (W0 m ρ c) (Proc.devRef .tc main_v1) = _
  after_results_simp
  rfl

/-- The destinations: row 1 of the edge list. -/
theorem W1_v3 : W1 m ρ c (Proc.devRef .tc main_v3) = dstOf (m ((c : Thread nD τ).loc main_arg9)) := by
  show StableHlo.after hostOps0 (W0 m ρ c) (Proc.devRef .tc main_v3) = _
  after_results_simp
  rfl

/-! ## Kernel 0: max(x·W_in + b_in, 0); the other buffers as they were -/

theorem W2_v4 : W2 m ρ c (Proc.devRef .tc main_v4) = denseRelu (m ((c : Thread nD τ).loc main_arg0)) (m ((c : Thread nD τ).loc main_arg1)) (m ((c : Thread nD τ).loc main_arg2)) := by
  refine ((W2_arr m ρ c 3).trans (Region0.final (V1 m ρ) c)).trans ?_
  show denseRelu (W1 m ρ c (Proc.devRef .tc main_arg0)) (W1 m ρ c (Proc.devRef .tc main_arg1)) (W1 m ρ c (Proc.devRef .tc main_arg2)) = _
  rw [W1_arg0, W1_arg1, W1_arg2]

theorem W2_arg3 : W2 m ρ c (Proc.devRef .tc main_arg3) = W1 m ρ c (Proc.devRef .tc main_arg3) := W2_of_ne m ρ c main_arg3 (by decide)
theorem W2_arg4 : W2 m ρ c (Proc.devRef .tc main_arg4) = W1 m ρ c (Proc.devRef .tc main_arg4) := W2_of_ne m ρ c main_arg4 (by decide)
theorem W2_arg5 : W2 m ρ c (Proc.devRef .tc main_arg5) = W1 m ρ c (Proc.devRef .tc main_arg5) := W2_of_ne m ρ c main_arg5 (by decide)
theorem W2_arg6 : W2 m ρ c (Proc.devRef .tc main_arg6) = W1 m ρ c (Proc.devRef .tc main_arg6) := W2_of_ne m ρ c main_arg6 (by decide)
theorem W2_arg7 : W2 m ρ c (Proc.devRef .tc main_arg7) = W1 m ρ c (Proc.devRef .tc main_arg7) := W2_of_ne m ρ c main_arg7 (by decide)
theorem W2_arg8 : W2 m ρ c (Proc.devRef .tc main_arg8) = W1 m ρ c (Proc.devRef .tc main_arg8) := W2_of_ne m ρ c main_arg8 (by decide)
theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)

/-! ## The second stretch: two aggregates and the halves of W_mix0 -/

theorem W3_v23 : W3 m ρ c (Proc.devRef .tc main_v23) = agg (W2 m ρ c (Proc.devRef .tc main_v4)) (W2 m ρ c (Proc.devRef .tc main_v1)) (W2 m ρ c (Proc.devRef .tc main_v3)) := by
  show StableHlo.after hostOps1 (W2 m ρ c) (Proc.devRef .tc main_v23) = _
  after_results_simp
  rfl

theorem W3_v42 : W3 m ρ c (Proc.devRef .tc main_v42) = agg (agg (W2 m ρ c (Proc.devRef .tc main_v4)) (W2 m ρ c (Proc.devRef .tc main_v1)) (W2 m ρ c (Proc.devRef .tc main_v3))) (W2 m ρ c (Proc.devRef .tc main_v1)) (W2 m ρ c (Proc.devRef .tc main_v3)) := by
  show StableHlo.after hostOps1 (W2 m ρ c) (Proc.devRef .tc main_v42) = _
  after_results_simp
  rfl

theorem W3_v43 : W3 m ρ c (Proc.devRef .tc main_v43) = upper (W2 m ρ c (Proc.devRef .tc main_arg3)) := by
  show StableHlo.after hostOps1 (W2 m ρ c) (Proc.devRef .tc main_v43) = _
  after_results_simp
  rfl

theorem W3_v44 : W3 m ρ c (Proc.devRef .tc main_v44) = lower (W2 m ρ c (Proc.devRef .tc main_arg3)) := by
  show StableHlo.after hostOps1 (W2 m ρ c) (Proc.devRef .tc main_v44) = _
  after_results_simp
  rfl

theorem W3_arg4 : W3 m ρ c (Proc.devRef .tc main_arg4) = W2 m ρ c (Proc.devRef .tc main_arg4) := by
  show StableHlo.after hostOps1 (W2 m ρ c) (Proc.devRef .tc main_arg4) = _
  after_results_simp
theorem W3_arg5 : W3 m ρ c (Proc.devRef .tc main_arg5) = W2 m ρ c (Proc.devRef .tc main_arg5) := by
  show StableHlo.after hostOps1 (W2 m ρ c) (Proc.devRef .tc main_arg5) = _
  after_results_simp
theorem W3_arg6 : W3 m ρ c (Proc.devRef .tc main_arg6) = W2 m ρ c (Proc.devRef .tc main_arg6) := by
  show StableHlo.after hostOps1 (W2 m ρ c) (Proc.devRef .tc main_arg6) = _
  after_results_simp
theorem W3_arg7 : W3 m ρ c (Proc.devRef .tc main_arg7) = W2 m ρ c (Proc.devRef .tc main_arg7) := by
  show StableHlo.after hostOps1 (W2 m ρ c) (Proc.devRef .tc main_arg7) = _
  after_results_simp
theorem W3_arg8 : W3 m ρ c (Proc.devRef .tc main_arg8) = W2 m ρ c (Proc.devRef .tc main_arg8) := by
  show StableHlo.after hostOps1 (W2 m ρ c) (Proc.devRef .tc main_arg8) = _
  after_results_simp
theorem W3_v1 : W3 m ρ c (Proc.devRef .tc main_v1) = W2 m ρ c (Proc.devRef .tc main_v1) := by
  show StableHlo.after hostOps1 (W2 m ρ c) (Proc.devRef .tc main_v1) = _
  after_results_simp
theorem W3_v3 : W3 m ρ c (Proc.devRef .tc main_v3) = W2 m ρ c (Proc.devRef .tc main_v3) := by
  show StableHlo.after hostOps1 (W2 m ρ c) (Proc.devRef .tc main_v3) = _
  after_results_simp

/-! ## Kernel 1: the first mixing layer, with the maximum -/

theorem W4_v45 : W4 m ρ c (Proc.devRef .tc main_v45) = mixRelu (W3 m ρ c (Proc.devRef .tc main_v23)) (W3 m ρ c (Proc.devRef .tc main_v42)) (W3 m ρ c (Proc.devRef .tc main_v43)) (W3 m ρ c (Proc.devRef .tc main_v44)) (W3 m ρ c (Proc.devRef .tc main_arg4)) :=
  (W4_arr m ρ c 5).trans (Region1.final (V3 m ρ) c)

theorem W4_arg5 : W4 m ρ c (Proc.devRef .tc main_arg5) = W3 m ρ c (Proc.devRef .tc main_arg5) := W4_of_ne m ρ c main_arg5 (by decide)
theorem W4_arg6 : W4 m ρ c (Proc.devRef .tc main_arg6) = W3 m ρ c (Proc.devRef .tc main_arg6) := W4_of_ne m ρ c main_arg6 (by decide)
theorem W4_arg7 : W4 m ρ c (Proc.devRef .tc main_arg7) = W3 m ρ c (Proc.devRef .tc main_arg7) := W4_of_ne m ρ c main_arg7 (by decide)
theorem W4_arg8 : W4 m ρ c (Proc.devRef .tc main_arg8) = W3 m ρ c (Proc.devRef .tc main_arg8) := W4_of_ne m ρ c main_arg8 (by decide)
theorem W4_v1 : W4 m ρ c (Proc.devRef .tc main_v1) = W3 m ρ c (Proc.devRef .tc main_v1) := W4_of_ne m ρ c main_v1 (by decide)
theorem W4_v3 : W4 m ρ c (Proc.devRef .tc main_v3) = W3 m ρ c (Proc.devRef .tc main_v3) := W4_of_ne m ρ c main_v3 (by decide)

/-! ## The third stretch: two aggregates and the halves of W_mix1 -/

theorem W5_v64 : W5 m ρ c (Proc.devRef .tc main_v64) = agg (W4 m ρ c (Proc.devRef .tc main_v45)) (W4 m ρ c (Proc.devRef .tc main_v1)) (W4 m ρ c (Proc.devRef .tc main_v3)) := by
  show StableHlo.after hostOps2 (W4 m ρ c) (Proc.devRef .tc main_v64) = _
  after_results_simp
  rfl

theorem W5_v83 : W5 m ρ c (Proc.devRef .tc main_v83) = agg (agg (W4 m ρ c (Proc.devRef .tc main_v45)) (W4 m ρ c (Proc.devRef .tc main_v1)) (W4 m ρ c (Proc.devRef .tc main_v3))) (W4 m ρ c (Proc.devRef .tc main_v1)) (W4 m ρ c (Proc.devRef .tc main_v3)) := by
  show StableHlo.after hostOps2 (W4 m ρ c) (Proc.devRef .tc main_v83) = _
  after_results_simp
  rfl

theorem W5_v84 : W5 m ρ c (Proc.devRef .tc main_v84) = upper (W4 m ρ c (Proc.devRef .tc main_arg5)) := by
  show StableHlo.after hostOps2 (W4 m ρ c) (Proc.devRef .tc main_v84) = _
  after_results_simp
  rfl

theorem W5_v85 : W5 m ρ c (Proc.devRef .tc main_v85) = lower (W4 m ρ c (Proc.devRef .tc main_arg5)) := by
  show StableHlo.after hostOps2 (W4 m ρ c) (Proc.devRef .tc main_v85) = _
  after_results_simp
  rfl

theorem W5_arg6 : W5 m ρ c (Proc.devRef .tc main_arg6) = W4 m ρ c (Proc.devRef .tc main_arg6) := by
  show StableHlo.after hostOps2 (W4 m ρ c) (Proc.devRef .tc main_arg6) = _
  after_results_simp
theorem W5_arg7 : W5 m ρ c (Proc.devRef .tc main_arg7) = W4 m ρ c (Proc.devRef .tc main_arg7) := by
  show StableHlo.after hostOps2 (W4 m ρ c) (Proc.devRef .tc main_arg7) = _
  after_results_simp
theorem W5_arg8 : W5 m ρ c (Proc.devRef .tc main_arg8) = W4 m ρ c (Proc.devRef .tc main_arg8) := by
  show StableHlo.after hostOps2 (W4 m ρ c) (Proc.devRef .tc main_arg8) = _
  after_results_simp

/-! ## Kernel 2: the second mixing layer, without the maximum; kernel 3: the last dense layer -/

theorem W6_v86 : W6 m ρ c (Proc.devRef .tc main_v86) = mix (W5 m ρ c (Proc.devRef .tc main_v64)) (W5 m ρ c (Proc.devRef .tc main_v83)) (W5 m ρ c (Proc.devRef .tc main_v84)) (W5 m ρ c (Proc.devRef .tc main_v85)) (W5 m ρ c (Proc.devRef .tc main_arg6)) :=
  (W6_arr m ρ c 5).trans (Region2.final (V5 m ρ) c)

theorem W6_arg7 : W6 m ρ c (Proc.devRef .tc main_arg7) = W5 m ρ c (Proc.devRef .tc main_arg7) := W6_of_ne m ρ c main_arg7 (by decide)
theorem W6_arg8 : W6 m ρ c (Proc.devRef .tc main_arg8) = W5 m ρ c (Proc.devRef .tc main_arg8) := W6_of_ne m ρ c main_arg8 (by decide)

theorem W7_v87 : W7 m ρ c (Proc.devRef .tc main_v87) = dense (W6 m ρ c (Proc.devRef .tc main_v86)) (W6 m ρ c (Proc.devRef .tc main_arg7)) (W6 m ρ c (Proc.devRef .tc main_arg8)) :=
  (W7_arr m ρ c 3).trans (Region3.final (V6 m ρ) c)

/-! ## The fold composed -/

/-- The result buffer at the last boundary is the encoder of the ten arguments. -/
theorem result : W7 m ρ c (Proc.devRef .tc main_v87) = encoder (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [W7_v87, W6_v86, W6_arg7, W6_arg8, W5_v64, W5_v83, W5_v84, W5_v85, W5_arg6, W5_arg7, W5_arg8,
    W4_v45, W4_arg5, W4_arg6, W4_arg7, W4_arg8, W4_v1, W4_v3,
    W3_v23, W3_v42, W3_v43, W3_v44, W3_arg4, W3_arg5, W3_arg6, W3_arg7, W3_arg8, W3_v1, W3_v3,
    W2_v4, W2_arg3, W2_arg4, W2_arg5, W2_arg6, W2_arg7, W2_arg8, W2_v1, W2_v3,
    W1_arg3, W1_arg4, W1_arg5, W1_arg6, W1_arg7, W1_arg8, W1_v1, W1_v3]
  rfl

/-- The kernel program's run: every weakly fair execution terminates, nothing faulting, with the result at the encoder
    of the arguments and the arguments as launched. -/
theorem run : θ_run defs (onTc (τ := τ) (main (F := Ideal))) ⟨m, fun _ => 0, ρ⟩ (fun r => ∀ c : Dev nD,
      r.2.mem ((c.tc : Thread nD τ).loc main_v87) = encoder (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result m ρ c), (h c).2⟩) (Cert.KernelIdeal.RunValue.run m ρ)

end Cert.KernelIdeal.KValue

end
-- ==== Proof.RefValue.lean ====
/-
  The reference program's result as the same function of its arguments. The reference is one straight line of host
  operations; its generated reading names each operation's value as a stage. Stage by stage: x·W_in + b_in with the
  maximum is the first dense layer; each gather / scatter-add / divide run is the mean aggregate of the stage before it
  (the same operations the kernel program runs between its kernels, so the same function); a concatenation of two
  aggregates multiplied by a [256, 128] weight, plus the bias, is the mixing layer of the weight's two halves — the one
  place the two programs differ in arrangement, joined by splitting the sum over the 256 joined columns into its two
  runs of 128 —; the last product plus bias is the last dense layer. Composed, the reference's result is the encoder
  of its arguments.
-/
import proofs.«135795_j38517266710885_1_alg».proof.Proof.Gen.ReferenceIdeal.Read
import proofs.«135795_j38517266710885_1_alg».proof.Proof.Chain

set_option maxRecDepth 16384

noncomputable section

namespace Cert.ReferenceIdeal.RefValue

open Cert.ReferenceIdeal Cert.ReferenceIdeal.Gen Cert.ReferenceIdeal.Read Cert.Layers
open Idealize.ShloMosaic Idealize.ShloMosaic.TcCoe Idealize.ShloMosaic.ValueIdx Idealize.SL.Sem
open Cert.KernelIdeal.Chain (srcOf dstOf agg upper lower stage stageRelu encoder)

variable (x0 : FVec Ideal S40000x256 .f32) (x1 : FVec Ideal S256x128 .f32) (x2 : FVec Ideal S128 .f32)
    (x3 : FVec Ideal S256x128 .f32) (x4 : FVec Ideal S128 .f32) (x5 : FVec Ideal S256x128 .f32) (x6 : FVec Ideal S128 .f32)
    (x7 : FVec Ideal S128x128 .f32) (x8 : FVec Ideal S128 .f32) (x9 : (⟨S2x640000, .i32⟩ : BufTy).Contents (Elt Ideal))

/-- The sources, as the reference cuts them out of the edge list. -/
theorem src_eq : val_main_v1 (F := Ideal) x9 = srcOf x9 := rfl

/-- The destinations. -/
theorem dst_eq : val_main_v3 (F := Ideal) x9 = dstOf x9 := rfl

/-- The first dense layer with the maximum. -/
theorem dense_in : val_main_v8 (F := Ideal) x0 x1 x2 = denseRelu x0 x1 x2 := by
  funext i
  obtain ⟨p, q, rfl⟩ : ∃ (p : Fin 40000) (q : Fin 128), i = ix2 p q := ⟨i 0, i 1, eq_ix2 i⟩
  exact congrArg relu0 (host_affine_apply dot_S40000x256_S256x128_S40000x128_1_0_0_1_n_n rfl x0 x1 x2
    bcast_S128_S1x128_1 bcast_S1x128_S40000x128_0_1 p q)

/-- The first aggregate: of the first layer's output. -/
theorem agg1 : val_main_v27 (F := Ideal) x0 x1 x2 x9
    = agg (val_main_v8 (F := Ideal) x0 x1 x2) (val_main_v1 (F := Ideal) x9) (val_main_v3 (F := Ideal) x9) := rfl

/-- The second aggregate: of the first. -/
theorem agg2 : val_main_v46 (F := Ideal) x0 x1 x2 x9
    = agg (val_main_v27 (F := Ideal) x0 x1 x2 x9) (val_main_v1 (F := Ideal) x9) (val_main_v3 (F := Ideal) x9) := rfl

/-- The first mixing layer with the maximum: the two aggregates side by side against W_mix0. -/
theorem mix0 : val_main_v52 (F := Ideal) x0 x1 x2 x3 x4 x9
    = mixRelu (val_main_v27 (F := Ideal) x0 x1 x2 x9) (val_main_v46 (F := Ideal) x0 x1 x2 x9) (upper x3) (lower x3) x4 := by
  funext i
  obtain ⟨p, q, rfl⟩ : ∃ (p : Fin 40000) (q : Fin 128), i = ix2 p q := ⟨i 0, i 1, eq_ix2 i⟩
  exact congrArg relu0 (host_mix_apply (K := 128) (C := 256) rfl dot_S40000x256_S256x128_S40000x128_1_0_0_1_n_n rfl
    (val_main_v27 (F := Ideal) x0 x1 x2 x9) (val_main_v46 (F := Ideal) x0 x1 x2 x9) x3 x4
    concatenates_S40000x128_S40000x128_S40000x256_d1 Cert.KernelIdeal.Gen.slices_S256x128_S128x128_0_0 Cert.KernelIdeal.Gen.slices_S256x128_S128x128_128_0
    bcast_S128_S1x128_1 bcast_S1x128_S40000x128_0_1 p q)

/-- The third aggregate: of the first mixing layer's output. -/
theorem agg3 : val_main_v71 (F := Ideal) x0 x1 x2 x3 x4 x9
    = agg (val_main_v52 (F := Ideal) x0 x1 x2 x3 x4 x9) (val_main_v1 (F := Ideal) x9) (val_main_v3 (F := Ideal) x9) := rfl

/-- The fourth aggregate: of the third. -/
theorem agg4 : val_main_v90 (F := Ideal) x0 x1 x2 x3 x4 x9
    = agg (val_main_v71 (F := Ideal) x0 x1 x2 x3 x4 x9) (val_main_v1 (F := Ideal) x9) (val_main_v3 (F := Ideal) x9) := rfl

/-- The second mixing layer, without the maximum. -/
theorem mix1 : val_main_v95 (F := Ideal) x0 x1 x2 x3 x4 x5 x6 x9
    = mix (val_main_v71 (F := Ideal) x0 x1 x2 x3 x4 x9) (val_main_v90 (F := Ideal) x0 x1 x2 x3 x4 x9) (upper x5) (lower x5) x6 := by
  funext i
  obtain ⟨p, q, rfl⟩ : ∃ (p : Fin 40000) (q : Fin 128), i = ix2 p q := ⟨i 0, i 1, eq_ix2 i⟩
  exact host_mix_apply (K := 128) (C := 256) rfl dot_S40000x256_S256x128_S40000x128_1_0_0_1_n_n rfl
    (val_main_v71 (F := Ideal) x0 x1 x2 x3 x4 x9) (val_main_v90 (F := Ideal) x0 x1 x2 x3 x4 x9) x5 x6
    concatenates_S40000x128_S40000x128_S40000x256_d1 Cert.KernelIdeal.Gen.slices_S256x128_S128x128_0_0 Cert.KernelIdeal.Gen.slices_S256x128_S128x128_128_0
    bcast_S128_S1x128_1 bcast_S1x128_S40000x128_0_1 p q

/-- The last dense layer. -/
theorem dense_out : val_main_v99 (F := Ideal) x0 x1 x2 x3 x4 x5 x6 x7 x8 x9
    = dense (val_main_v95 (F := Ideal) x0 x1 x2 x3 x4 x5 x6 x9) x7 x8 := by
  funext i
  obtain ⟨p, q, rfl⟩ : ∃ (p : Fin 40000) (q : Fin 128), i = ix2 p q := ⟨i 0, i 1, eq_ix2 i⟩
  exact host_affine_apply dot_S40000x128_S128x128_S40000x128_1_0_0_1_n_n rfl
    (val_main_v95 (F := Ideal) x0 x1 x2 x3 x4 x5 x6 x9) x7 x8 bcast_S128_S1x128_1 bcast_S1x128_S40000x128_0_1 p q

/-- The reference's last stage is the encoder of its arguments. -/
theorem stages_eq : val_main_v99 (F := Ideal) x0 x1 x2 x3 x4 x5 x6 x7 x8 x9 = encoder x0 x1 x2 x3 x4 x5 x6 x7 x8 x9 := by
  rw [dense_out, mix1, agg4, agg3, mix0, agg2, agg1, dense_in, src_eq, dst_eq]
  rfl

/-- The reference's result term is the encoder of the reference's arguments. -/
theorem result (m : (ℓ : Loc nD τ sig) → Buf (Elt Ideal) ℓ) (c : Dev nD) :
    Cert.ReferenceIdeal.Value.res_main_v99 (F := Ideal) m c
      = encoder (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (val_main_v99_eq (F := Ideal) m c).trans (stages_eq _ _ _ _ _ _ _ _ _ _)

end Cert.ReferenceIdeal.RefValue

end
-- ==== Proof.lean ====
/-
  An encoder over a graph of 40000 nodes and 640000 edges: a dense layer with the maximum, two rounds of (the mean of a
  node's in-neighbours' features, the mean of those means, and a mixing layer H₁·W[0:128] + H₂·W[128:256] + b of the
  two), and a last dense layer. The kernel program runs the four layers as pipelined kernels over blocks of 5000 rows,
  with the means as host operations between them; the reference is one line of host operations that, for a mixing
  layer, joins the two means side by side and multiplies by the whole weight [256, 128].

  On the extended reals both programs end at ONE function of the ten arguments (Proof/Chain.lean, encoder): a kernel's
  blocks tile its output and each entry of a layer reads one row, so each kernel leaves its layer of the whole arrays
  (Proof/Region0 … Region3.lean, read through the program's boundary contents in Proof/KernelValue.lean); narrowing to
  bf16 is the identity; a matrix product into a zero accumulator and a dot_general are the same sum; the means are the
  same operations in both programs; and the joined product splits into its two runs of 128 columns
  (Proof/LibDenseMixLayers.lean), which needs only that addition is commutative and associative — no input need be finite for it.
  The three programs' runs (termination, no fault, arguments unchanged) are the generated frames and the reference's
  generated run; the idealization rewrote nothing, so there is nothing to preserve beyond the text.
-/
import proofs.«135795_j38517266710885_1_alg».proof.Defs
import proofs.«135795_j38517266710885_1_alg».proof.Proof.Gen.Kernel
import proofs.«135795_j38517266710885_1_alg».proof.Proof.Gen.Kernel.Skeleton
import proofs.«135795_j38517266710885_1_alg».proof.Proof.Gen.Kernel.Launch
import proofs.«135795_j38517266710885_1_alg».proof.Proof.Gen.Kernel.Points
import proofs.«135795_j38517266710885_1_alg».proof.Proof.Gen.Kernel.Frame
import proofs.«135795_j38517266710885_1_alg».proof.Proof.Gen.KernelIdeal
import proofs.«135795_j38517266710885_1_alg».proof.Proof.Gen.KernelIdeal.Skeleton
import proofs.«135795_j38517266710885_1_alg».proof.Proof.Gen.KernelIdeal.Launch
import proofs.«135795_j38517266710885_1_alg».proof.Proof.Gen.KernelIdeal.Points
import proofs.«135795_j38517266710885_1_alg».proof.Proof.Gen.KernelIdeal.Frame
import proofs.«135795_j38517266710885_1_alg».proof.Proof.Gen.ReferenceIdeal
import proofs.«135795_j38517266710885_1_alg».proof.Proof.Gen.ReferenceIdeal.Run
import proofs.«135795_j38517266710885_1_alg».proof.Proof.Gen.ReferenceIdeal.Read
import proofs.«135795_j38517266710885_1_alg».proof.Proof.Gen.Pre_finite_inputs
import proofs.«135795_j38517266710885_1_alg».proof.Proof.KernelValue
import proofs.«135795_j38517266710885_1_alg».proof.Proof.RefValue
import Idealize.ShloMosaic.Adequacy
import Idealize.ShloMosaic.Init

noncomputable section

namespace Cert.Proof

open Idealize.ShloMosaic Idealize.SL.Sem

/-- The kernel program as printed runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel program is the printed program's own text read on the extended reals. -/
theorem preserves : Cert.preserves_Kernel_KernelIdeal := trivial

/-- From memories agreeing on the arguments both programs end at the encoder of those arguments. -/
theorem algebraic : Cert.algebraic_KernelIdeal_ReferenceIdeal := by
  intro m ρ m' ρ' _ hagree
  refine ⟨fun c => Cert.KernelIdeal.Chain.encoder (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.RefValue.result m' c, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
